-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 5
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x128, .f32⟩
  | .local _ .vmem, ⟨8, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_7 : BitVec 32 := 0#32
  let v13 : BitVec 1 := Scalar.cmpi .eq arg0 c0_i32_7
  let v14 : BitVec 32 := Scalar.extui v13
  let c0_i32_8 : BitVec 32 := 0#32
  let v15 : BitVec 1 := Scalar.cmpi .ne v14 c0_i32_8
  v15

def k0_off1 (i : grid0.Coords) : Fin 2 → Nat :=
  let c24_i32 : BitVec 32 := 24#32
  let arg1 : BitVec 32 := BitVec.ofNat 32 (i 1).val
  let v19 : BitVec 32 := Scalar.subi c24_i32 arg1
  let c400_i32 : BitVec 32 := 400#32
  let v20 : BitVec 32 := Scalar.muli v19 c400_i32
  let v21 : Index := Scalar.indexCast v20
  let c0_11 : Index := 0#32
  ![v21.toNat, 0]
def k0_cond4 (i : grid0.Coords) : BitVec 1 :=
  let arg0 : BitVec 32 := BitVec.ofNat 32 (i 0).val
  let c1_i32_9 : BitVec 32 := 1#32
  let v16 : BitVec 1 := Scalar.cmpi .eq arg0 c1_i32_9
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let c24_i32 : BitVec 32 := 24#32
  let v1 : BitVec 32 := Scalar.subi c24_i32 arg1
  let v2 : BitVec 32 := Scalar.muli v0 v1
  let v3 : BitVec 32 := Scalar.muli arg0 arg1
  let v4 : BitVec 32 := Scalar.addi v2 v3
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S400x10000_S400x10000_0_0 : ∀ a, (![0, 0] : Fin 2 → Nat) a + S400x10000.size a ≤ S400x10000.size a
  h_S400x10000 : 0 < S400x10000.numel
  h_S400x128 : 0 < S400x128.numel
  shapeCasts_S400x128_S400x128 : S400x128.ShapeCasts S400x128
  inb_S400x128_S400x128_0_0 : ∀ a, (![0, 0] : Fin 2 → Nat) a + S400x128.size a ≤ S400x128.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hrank0 : 0 < grid0.rank
  k0_off1_inb : ∀ i : grid0.Coords, ∀ (k0_h3 : k0_cond3 i = 1#1), ∀ a, (k0_off1 i) a + S400x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S_, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BitsCases.lean ====
/-
  The grid of the fused two-layer graph convolution Y = A·((A·(X·W1))·W2): two phases of 25 steps. The four guards
  of the body in closed form over the 50 grid points, where the result window is idle and where it is written
  back, and the names of the buffers the body is handed.
-/
import proofs.«152283_g90984587198652_cont_sun_m_16_11_alg».proof.Proof.Gen.Kernel.Frame
import proofs.«152283_g90984587198652_cont_sun_m_16_11_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The four branch conditions, as the body computes them from the grid point -/

/-- First guard: phase 0 and step 0 (the first projection X·W1 is computed here). -/
abbrev cnd1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Second guard: phase 1 and step 0 (the second projection H·W2 is computed here). -/
abbrev cnd2 (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
/-- Third guard: phase 0 (a row block of H is stored). -/
abbrev cnd3 (i : grid0.Coords) : Prop := k0_cond3 i = 1#1
/-- Fourth guard: phase 1 (a row block of the result is stored). -/
abbrev cnd4 (i : grid0.Coords) : Prop := k0_cond4 i = 1#1

theorem hcnd1 : ∀ t : Fin cfg0.N, cnd1 (grid0.coords t) ↔ t.val = 0 :=
  (by decide +kernel : ∀ t : Fin grid0.N, cnd1 (grid0.coords t) ↔ t.val = 0)
theorem hcnd2 : ∀ t : Fin cfg0.N, cnd2 (grid0.coords t) ↔ t.val = 25 :=
  (by decide +kernel : ∀ t : Fin grid0.N, cnd2 (grid0.coords t) ↔ t.val = 25)
theorem hcnd3 : ∀ t : Fin cfg0.N, cnd3 (grid0.coords t) ↔ t.val < 25 :=
  (by decide +kernel : ∀ t : Fin grid0.N, cnd3 (grid0.coords t) ↔ t.val < 25)
theorem hcnd4 : ∀ t : Fin cfg0.N, cnd4 (grid0.coords t) ↔ 25 ≤ t.val :=
  (by decide +kernel : ∀ t : Fin grid0.N, cnd4 (grid0.coords t) ↔ 25 ≤ t.val)

/-- In phase 0, step i stores rows (24 - i)·400 … of H: the blocks of A are walked backwards. -/
theorem hoff1 : ∀ t : Fin cfg0.N, t.val < 25 → k0_off1 (grid0.coords t) = ![(24 - t.val) * 400, 0] :=
  (by decide +kernel : ∀ t : Fin grid0.N, t.val < 25 → k0_off1 (grid0.coords t) = ![(24 - t.val) * 400, 0])

/-! ## Where the result window is idle, and where its block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The result window is idle exactly in phase 0, -/
theorem idle4 : ∀ t : Fin cfg0.N, t.val < 25 → cfg0.idle 4 (grid0.coords t) = true := by decide +kernel
theorem live4 : ∀ t : Fin cfg0.N, 25 ≤ t.val → cfg0.idle 4 (grid0.coords t) = false := by decide +kernel
/-- and its block is written back after every step of phase 1 and after none of phase 0. -/
theorem noflush4 : ∀ t : Fin cfg0.N, t.val < 25 → (cfg0.win 4).flush t = false :=
  (by decide +kernel : ∀ t : Fin grid0.N, t.val < 25 → win0_4.flush t = false)
theorem flush4 : ∀ t : Fin cfg0.N, 25 ≤ t.val → (cfg0.win 4).flush t = true :=
  (by decide +kernel : ∀ t : Fin grid0.N, 25 ≤ t.val → win0_4.flush t = true)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The two scratch buffers: the projected features z and the hidden layer H. -/
abbrev scZ : Memref sig .tc .vmem S10000x128 .f32 := Memref.whole cc0_scratch0
abbrev scH : Memref sig .tc .vmem S10000x128 .f32 := Memref.whole cc0_scratch1

/-- What the region hands the body beside its windows: both scratch buffers at some contents, and the generator register. -/
theorem PhiA_eq (c : Dev nD) :
    (Pipeline.ΦA spec0 c : sProp 𝕄)
      = iprop(iprop((∃ d, owns (c : Thread nD τ) scZ fullShare d) ∗ (∃ d, owns (c : Thread nD τ) scH fullShare d)) ∗ (∃ r, prngReg c r)) := by
  unfold Pipeline.ΦA; rw [scopedRest0_eq]; simp only [scZ, scH, owns_whole]; try rfl

end Cert.Kernel.Body

end
-- ==== Proof.BitsRuns.lean ====
/-
  The body of the fused graph convolution, run once per control case: at the first step of phase 0 (z := X·W1, then a
  row block of H), at a later step of phase 0 (a row block of H), at the first step of phase 1 (z := H·W2, then a row
  block of the result) and at a later step of phase 1 (a row block of the result). Each run names what the body stored
  as a list of pieces; the lemmas after them give the pieces in closed form over the body's payloads.
-/
import proofs.«152283_g90984587198652_cont_sun_m_16_11_alg».proof.Proof.BitsCases
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- Phase 0, step 0: the body computes z := X·W1 into the first scratch, multiplies the block of A by it and stores the
    product over 400 rows of the second scratch. The pieces each scratch ends with are found by the run. -/
noncomputable def runA (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : cnd1 i) (hc2 : ¬cnd2 i) (hc3 : cnd3 i) (hc4 : ¬cnd4 i)
    (x0 : Vec F S10000x128 .f32) (x1 : Vec F S128x128 .f32) (x3 : Vec F S400x10000 .f32) (xh : Vec F S10000x128 .f32) :
    Σ' (LZ : List (View.Piece (Elt F) S10000x128 .f32)), { LH : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg5 fullShare x3
            ∗ (∃ d, owns (c : Thread nD τ) arg7 fullShare d) ∗ owns (c : Thread nD τ) arg8 fullShare xh
            ∗ (iprop(owns (c : Thread nD τ) arg2 fullShare x0 ∗ owns (c : Thread nD τ) arg3 fullShare x1 ∗ owns (c : Thread nD τ) arg5 fullShare x3
                ∗ (∃ f, arg7.view.loc (c : Thread nD τ) ↦[arg7.view.set]{fullShare} arg7.view.writes (Elt F) f LZ)
                ∗ (arg8.view.loc (c : Thread nD τ) ↦[arg8.view.set]{fullShare} arg8.view.writes (Elt F) (harg8.unread xh) LH)) -∗ K ⟨⟩))
          ⊢ wp frame (wpE (defs₀ (F := F)) Variants.none c none) E (cc0__gcn_kernel i arg2 harg2 arg3 harg3 arg4 harg4 arg5 harg5 arg6 harg6 arg7 harg7 arg8 harg8) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f3, %hf3, H3⟩, ⟨%dz, %fz, -, HZ⟩, ⟨%fh, %hfh, HH⟩, Hk⟩
    obtain rfl := harg2.eq_unread hf0; obtain rfl := harg3.eq_unread hf1; obtain rfl := harg5.eq_unread hf3
    obtain rfl := harg8.eq_unread hfh
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [HZ]; · iexists _; iexact HZ
    iexact HH

set_option maxHeartbeats 1000000 in
/-- Phase 0, a later step: the block of A times the z the first scratch holds, stored over 400 rows of the second. -/
noncomputable def runB (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : ¬cnd2 i) (hc3 : cnd3 i) (hc4 : ¬cnd4 i)
    (x3 : Vec F S400x10000 .f32) (xz : Vec F S10000x128 .f32) (xh : Vec F S10000x128 .f32) :
    { LH : List (View.Piece (Elt F) S10000x128 .f32) //
      ∀ (E : Set ℕ) (K : PUnit → sProp 𝕄),
        iprop(owns (c : Thread nD τ) arg5 fullShare x3 ∗ owns (c : Thread nD τ) arg7 fullShare xz ∗ owns (c : Thread nD τ) arg8 fullShare xh
            ∗ (iprop(owns (c : Thread nD τ) arg5 fullShare x3 ∗ owns (c : Thread nD τ) arg7 fullShare xz
                ∗ (arg8.view.loc (c : Thread nD τ) ↦[arg8.view.set]{fullShare} arg8.view.writes (Elt F) (harg8.unread xh) LH)) -∗ K ⟨⟩))
          ⊢ wp frame (wpE (defs₀ (F := F)) Variants.none c none) E (cc0__gcn_kernel i arg2 harg2 arg3 harg3 arg4 harg4 arg5 harg5 arg6 harg6 arg7 harg7 arg8 harg8) K } := by
  refine ⟨?_, fun E K => ?run⟩
  case run =>
    simp only [cc0__gcn_kernel_eq_skeleton]; unfold cc0__gcn_kernel_skel
    unfold owns
    iintro ⟨⟨%f3, %hf3, H3⟩, ⟨%fz, %hfz, HZ⟩, ⟨%fh, %hfh, HH⟩, Hk⟩
    obtain rfl := harg5.eq_unread hf3; obtain rfl := harg7.eq_unread hfz
    obtain rfl := harg8.eq_unread hfh
    sl_exec (disch := first | exact hc1 | exact hc2 | exact hc3 | exact hc4)
    sl_step
    iapply Hk
    isplitl [H3]
    · iexists _; isplitr; · ipureintro; exact harg5.read_unread _
      iexact H3
    isplitl [HZ]
    · iexists _; isplitr; · ipureintro; exact harg7.read_unread _
      iexact HZ
    iexact HH

set_option maxHeartbeats 1000000 in
/-- Phase 1, step 0: the body computes z := H·W2 from the second scratch into the first, multiplies the block of A by it
    and stores the product into the result's staging buffer. -/
noncomputable def runC (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : cnd2 i) (hc3 : ¬cnd3 i) (hc4 : cnd4 i)
    (x2 : Vec F S128x128 .f32) (x3 : Vec F S400x10000 .f32) (xh : Vec F S10000x128 .f32) :
    Σ' (LO : List (View.Piece (Elt F) S400x128 .f32)), { LZ : List (View.Piece (Elt F) S10000x128 .f32) //
      ∀ (E : Set ℕ) (K : PUnit → sProp 𝕄),
        iprop(owns (c : Thread nD τ) arg4 fullShare x2 ∗ owns (c : Thread nD τ) arg5 fullShare x3 ∗ (∃ d, owns (c : Thread nD τ) arg6 fullShare d)
            ∗ (∃ d, owns (c : Thread nD τ) arg7 fullShare d) ∗ owns (c : Thread nD τ) arg8 fullShare xh
            ∗ (iprop(owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LZ)
                ∗ owns (c : Thread nD τ) arg8 fullShare xh) -∗ K ⟨⟩))
          ⊢ wp frame (wpE (defs₀ (F := F)) Variants.none c none) E (cc0__gcn_kernel i arg2 harg2 arg3 harg3 arg4 harg4 arg5 harg5 arg6 harg6 arg7 harg7 arg8 harg8) K } := by
  refine ⟨?_, ?_, fun E K => ?run⟩
  case run =>
    simp only [cc0__gcn_kernel_eq_skeleton]; unfold cc0__gcn_kernel_skel
    unfold owns
    iintro ⟨⟨%f2, %hf2, H2⟩, ⟨%f3, %hf3, H3⟩, ⟨%dO, %fO, -, HO⟩, ⟨%dz, %fz, -, HZ⟩, ⟨%fh, %hfh, HH⟩, Hk⟩
    obtain rfl := harg4.eq_unread hf2; obtain rfl := harg5.eq_unread hf3
    obtain rfl := harg8.eq_unread hfh
    sl_exec (disch := first | exact hc1 | exact hc2 | exact hc3 | exact hc4)
    sl_step
    iapply Hk
    isplitl [H2]
    · iexists _; isplitr; · ipureintro; exact harg4.read_unread _
      iexact H2
    isplitl [H3]
    · iexists _; isplitr; · ipureintro; exact harg5.read_unread _
      iexact H3
    isplitl [HO]; · iexists _; iexact HO
    isplitl [HZ]; · iexists _; iexact HZ
    iexists _; isplitr; · ipureintro; exact harg8.read_unread _
    iexact HH

set_option maxHeartbeats 1000000 in
/-- Phase 1, a later step: the block of A times the z the first scratch holds, stored into the result's staging buffer. -/
noncomputable def runD (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : ¬cnd2 i) (hc3 : ¬cnd3 i) (hc4 : cnd4 i)
    (x3 : Vec F S400x10000 .f32) (xz : Vec F S10000x128 .f32) :
    { LO : List (View.Piece (Elt F) S400x128 .f32) //
      ∀ (E : Set ℕ) (K : PUnit → sProp 𝕄),
        iprop(owns (c : Thread nD τ) arg5 fullShare x3 ∗ (∃ d, owns (c : Thread nD τ) arg6 fullShare d) ∗ owns (c : Thread nD τ) arg7 fullShare xz
            ∗ (iprop(owns (c : Thread nD τ) arg5 fullShare x3
                ∗ (∃ f, arg6.view.loc (c : Thread nD τ) ↦[arg6.view.set]{fullShare} arg6.view.writes (Elt F) f LO)
                ∗ owns (c : Thread nD τ) arg7 fullShare xz) -∗ K ⟨⟩))
          ⊢ wp frame (wpE (defs₀ (F := F)) Variants.none c none) E (cc0__gcn_kernel i arg2 harg2 arg3 harg3 arg4 harg4 arg5 harg5 arg6 harg6 arg7 harg7 arg8 harg8) K } := by
  refine ⟨?_, fun E K => ?run⟩
  case run =>
    simp only [cc0__gcn_kernel_eq_skeleton]; unfold cc0__gcn_kernel_skel
    unfold owns
    iintro ⟨⟨%f3, %hf3, H3⟩, ⟨%dO, %fO, -, HO⟩, ⟨%fz, %hfz, HZ⟩, Hk⟩
    obtain rfl := harg5.eq_unread hf3; obtain rfl := harg7.eq_unread hfz
    sl_exec (disch := first | exact hc1 | exact hc2 | exact hc3 | exact hc4)
    sl_step
    iapply Hk
    isplitl [H3]
    · iexists _; isplitr; · ipureintro; exact harg5.read_unread _
      iexact H3
    isplitl [HO]; · iexists _; iexact HO
    iexists _; isplitr; · ipureintro; exact harg7.read_unread _
    iexact HZ

/-! ## The pieces the runs found, in closed form -/

theorem hzero2 : (![0, 0] : Fin 2 → Nat) = fun _ => 0 := by funext a; fin_cases a <;> rfl

theorem runA_Z (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : cnd1 i) (hc2 : ¬cnd2 i) (hc3 : cnd3 i) (hc4 : ¬cnd4 i)
    (x0 : Vec F S10000x128 .f32) (x1 : Vec F S128x128 .f32) (x3 : Vec F S400x10000 .f32) (xh : Vec F S10000x128 .f32) :
    (runA c i arg2 harg2 arg3 harg3 arg4 harg4 arg5 harg5 arg6 harg6 arg7 harg7 arg8 harg8 hc1 hc2 hc3 hc4 x0 x1 x3 xh).1 = [⟨Rect.unit (s := S10000x128) ![0, 0] S10000x128.size inb_S10000x128_S10000x128_0_0, k0_pay1 x0 x1⟩] := by
  unfold runA
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runA_H (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : cnd1 i) (hc2 : ¬cnd2 i) (hc3 : cnd3 i) (hc4 : ¬cnd4 i)
    (x0 : Vec F S10000x128 .f32) (x1 : Vec F S128x128 .f32) (x3 : Vec F S400x10000 .f32) (xh : Vec F S10000x128 .f32) :
    (runA c i arg2 harg2 arg3 harg3 arg4 harg4 arg5 harg5 arg6 harg6 arg7 harg7 arg8 harg8 hc1 hc2 hc3 hc4 x0 x1 x3 xh).2.1 = [⟨Rect.unit (s := S10000x128) (k0_off1 i) S400x128.size (k0_off1_inb i hc3), k0_pay4 x3 (k0_pay1 x0 x1)⟩] := by
  unfold runA
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runB_H (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : ¬cnd2 i) (hc3 : cnd3 i) (hc4 : ¬cnd4 i)
    (x3 : Vec F S400x10000 .f32) (xz : Vec F S10000x128 .f32) (xh : Vec F S10000x128 .f32) :
    (runB c i arg2 harg2 arg3 harg3 arg4 harg4 arg5 harg5 arg6 harg6 arg7 harg7 arg8 harg8 hc1 hc2 hc3 hc4 x3 xz xh).1 = [⟨Rect.unit (s := S10000x128) (k0_off1 i) S400x128.size (k0_off1_inb i hc3), k0_pay4 x3 xz⟩] := by
  unfold runB
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runC_O (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : cnd2 i) (hc3 : ¬cnd3 i) (hc4 : cnd4 i)
    (x2 : Vec F S128x128 .f32) (x3 : Vec F S400x10000 .f32) (xh : Vec F S10000x128 .f32) :
    (runC c i arg2 harg2 arg3 harg3 arg4 harg4 arg5 harg5 arg6 harg6 arg7 harg7 arg8 harg8 hc1 hc2 hc3 hc4 x2 x3 xh).1 = [⟨Rect.unit (s := S400x128) ![0, 0] S400x128.size inb_S400x128_S400x128_0_0, k0_pay3 x3 (k0_pay2 xh x2)⟩] := by
  unfold runC
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runC_Z (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : cnd2 i) (hc3 : ¬cnd3 i) (hc4 : cnd4 i)
    (x2 : Vec F S128x128 .f32) (x3 : Vec F S400x10000 .f32) (xh : Vec F S10000x128 .f32) :
    (runC c i arg2 harg2 arg3 harg3 arg4 harg4 arg5 harg5 arg6 harg6 arg7 harg7 arg8 harg8 hc1 hc2 hc3 hc4 x2 x3 xh).2.1 = [⟨Rect.unit (s := S10000x128) ![0, 0] S10000x128.size inb_S10000x128_S10000x128_0_0, k0_pay2 xh x2⟩] := by
  unfold runC
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runD_O (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : ¬cnd2 i) (hc3 : ¬cnd3 i) (hc4 : cnd4 i)
    (x3 : Vec F S400x10000 .f32) (xz : Vec F S10000x128 .f32) :
    (runD c i arg2 harg2 arg3 harg3 arg4 harg4 arg5 harg5 arg6 harg6 arg7 harg7 arg8 harg8 hc1 hc2 hc3 hc4 x3 xz).1 = [⟨Rect.unit (s := S400x128) ![0, 0] S400x128.size inb_S400x128_S400x128_0_0, k0_pay3 x3 xz⟩] := by
  unfold runD
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

end Cert.Kernel.Body

end
-- ==== Proof.BitsBody.lean ====
/-
  The frame of the fused graph convolution Y = A·((A·(X·W1))·W2), run as two phases of 25 steps over the row blocks of A.
  What the two scratch buffers hold is carried from step to step: the first holds z (X·W1 in phase 0, H·W2 in phase 1);
  the second is filled with H = A·z, 400 rows per step of phase 0, from the last block down to the first, and is read
  whole at the first step of phase 1. The result's staging buffer is left alone in phase 0 and receives a row block of
  A·z in each step of phase 1.
-/
import proofs.«152283_g90984587198652_cont_sun_m_16_11_alg».proof.Proof.BitsRuns
import Idealize.ShloMosaic.Lib.WritesUnit

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch buffers and the result's staging buffer hold, step by step -/

theorem N50 : cfg0.N = 50 := N_0

/-- The grid point numbered n. -/
abbrev pt (n : ℕ) (h : n < 50) : Fin cfg0.N := ⟨n, lt_of_lt_of_eq h N50.symm⟩

/-- The block of A the pipeline hands the body at point t, as an array of 400 rows. -/
def ablk (c : Dev nD) (t : Fin cfg0.N) : Vec F S400x10000 .f32 := iblk m c 3 t

/-- z during phase 0: the first projection X·W1. -/
def zOne (c : Dev nD) : Vec F S10000x128 .f32 := k0_pay1 (iblk m c 0 (pt 0 (by decide))) (iblk m c 1 (pt 0 (by decide)))

theorem zOne_eq (c : Dev nD) (t : Fin cfg0.N) (h : t.val = 0) : k0_pay1 (iblk m c 0 t) (iblk m c 1 t) = zOne m c := by
  obtain rfl : t = pt 0 (by decide) := Fin.ext h
  rfl

/-- The step of phase 0 that visits row block b of A (the blocks are walked backwards). -/
abbrev ptOfBlk (b : ℕ) : Fin cfg0.N := pt (24 - b) (by omega)

/-- Row r of the 10000 as a row of its block of 400. -/
def rowIn (y : S10000x128.Idx) : S400x128.Idx
  | 0 => ⟨(y 0).val % 400, Nat.mod_lt _ (by decide)⟩
  | 1 => ⟨(y 1).val, (y 1).isLt⟩

/-- The hidden layer H = A·z, one block of 400 rows per step of phase 0: row r is row r mod 400 of the product of the
    block of A that holds row r with z. -/
def hid (c : Dev nD) : Vec F S10000x128 .f32 := fun y =>
  k0_pay4 (ablk m c (ptOfBlk ((y 0).val / 400))) (zOne m c) (rowIn y)

/-- z during phase 1: the second projection H·W2. -/
def zTwo (c : Dev nD) : Vec F S10000x128 .f32 := k0_pay2 (hid m c) (iblk m c 2 (pt 25 (by decide)))

theorem zTwo_eq (c : Dev nD) (t : Fin cfg0.N) (h : t.val = 25) : k0_pay2 (hid m c) (iblk m c 2 t) = zTwo m c := by
  obtain rfl : t = pt 25 (by decide) := Fin.ext h
  rfl

/-- z after step n. -/
def zAt (c : Dev nD) (n : ℕ) : Vec F S10000x128 .f32 := if n < 25 then zOne m c else zTwo m c

theorem zAt_lt (c : Dev nD) (n : ℕ) (h : n < 25) : zAt m c n = zOne m c := if_pos h
theorem zAt_ge (c : Dev nD) (n : ℕ) (h : 25 ≤ n) : zAt m c n = zTwo m c := if_neg (by omega)

/-- The row block of the result a step of phase 1 stores: its block of A times z. -/
def outAt (c : Dev nD) (t : Fin cfg0.N) : Vec F S400x128 .f32 := k0_pay3 (ablk m c t) (zTwo m c)

/-- After step n of phase 0 the second scratch holds H on the rows of the blocks visited so far: rows (24 - n)·400 and up.
    (From step 24 on: everywhere.) -/
def HInv (c : Dev nD) (n : ℕ) (h : Vec F S10000x128 .f32) : Prop :=
  ∀ y : S10000x128.Idx, (24 - n) * 400 ≤ (y 0).val → h y = hid m c y

/-- One store through the whole of a buffer leaves its payload. -/
theorem read_writes_whole {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- The store of step t of phase 0 extends the rows on which the second scratch holds H by the block the step visits. -/
theorem hinv_step (c : Dev nD) (t : Fin cfg0.N) (ht : t.val < 25) (v : View sig .tc .vmem S10000x128 .f32) (f : v.ty.Contents (Elt F))
    (inb : ∀ a, k0_off1 (grid0.coords t) a + S400x128.size a ≤ S10000x128.size a)
    (hprev : ∀ y : S10000x128.Idx, (24 - t.val + 1) * 400 ≤ (y 0).val → v.read (Elt F) f y = hid m c y) :
    HInv m c t.val (v.read (Elt F) (v.writes (Elt F) f
      [(⟨Rect.unit (s := S10000x128) (k0_off1 (grid0.coords t)) S400x128.size inb, k0_pay4 (ablk m c t) (zOne m c)⟩ : View.Piece (Elt F) S10000x128 .f32)])) := by
  intro y hy
  by_cases hlt : (y 0).val < (24 - t.val) * 400 + 400
  · have hx0 : (y (0 : Fin 2)).val = (24 - t.val) * 400 + (rowIn y (0 : Fin 2)).val := by
      show (y 0).val = (24 - t.val) * 400 + (y 0).val % 400
      omega
    have hx1 : (y (1 : Fin 2)).val = (rowIn y (1 : Fin 2)).val := rfl
    refine (View.read_writes_cons_rows_of_mem v f inb _ [] y (rowIn y) (hoff1 t ht) hx0 hx1).trans ?_
    have hb : ptOfBlk ((y 0).val / 400) = t := Fin.ext (by show 24 - (y 0).val / 400 = t.val; omega)
    unfold hid
    rw [hb]
  · refine (View.read_writes_cons_rows_of_not_mem (W := 400) v f inb _ [] y (hoff1 t ht) rfl (Or.inr (by omega))).trans ?_
    exact hprev y (by omega)

/-! ## The region invariant and the proof data -/

/-- Before step n: at the start both scratch buffers hold anything; afterwards the first holds z and the second holds H on
    the rows stored so far. -/
def PhiS (c : Dev nD) : (n : ℕ) → sProp 𝕄
  | 0 => Pipeline.ΦA spec0 c
  | n + 1 => iprop(iprop(owns (c : Thread nD τ) scZ fullShare (zAt m c n)
      ∗ (∃ h, ⌜HInv m c n h⌝ ∗ owns (c : Thread nD τ) scH fullShare h)) ∗ (∃ r, prngReg c r))

theorem PhiS_zero (c : Dev nD) (n : ℕ) (hz : n = 0) : PhiS m c n = Pipeline.ΦA spec0 c := by subst hz; rfl

theorem PhiS_succ (c : Dev nD) (n : ℕ) :
    PhiS m c (n + 1) = iprop(iprop(owns (c : Thread nD τ) scZ fullShare (zAt m c n)
      ∗ (∃ h, ⌜HInv m c n h⌝ ∗ owns (c : Thread nD τ) scH fullShare h)) ∗ (∃ r, prngReg c r)) := rfl

theorem PhiS_pos (c : Dev nD) (n : ℕ) (hz : n ≠ 0) :
    PhiS m c n = iprop(iprop(owns (c : Thread nD τ) scZ fullShare (zAt m c (n - 1))
      ∗ (∃ h, ⌜HInv m c (n - 1) h⌝ ∗ owns (c : Thread nD τ) scH fullShare h)) ∗ (∃ r, prngReg c r)) := by
  cases n with
  | zero => exact absurd rfl hz
  | succ n => rfl

/-- The proof data: the arrays as the region finds them; every input's buffer left at its block; the result's buffer left
    at its block of A times z; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) (h : 25 ≤ t.val) : (dats m 0 c).leavesExact 4 t = owns (c : Thread nD τ) (ms4 t) fullShare (outAt m c t) := by
  unfold Dat.leavesExact; rw [live4 t h, after4]

set_option maxHeartbeats 4000000 in
/-- The body at any step: which of the four cases the step is in is read off its number; the run of that case applies;
    the invariant hands over the scratch buffers at what the step before left and takes them back at what this step leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ, PhiS_castSucc]
  rw [leaves0, leaves1, leaves2, leaves3]
  have hN : t.val < 50 := lt_of_lt_of_eq t.isLt N50
  by_cases hA : t.val = 0
  · -- phase 0, step 0
    have hc1 : cnd1 (grid0.coords t) := (hcnd1 t).mpr hA
    have hc2 : ¬cnd2 (grid0.coords t) := fun h => by have := (hcnd2 t).mp h; omega
    have hc3 : cnd3 (grid0.coords t) := (hcnd3 t).mpr (by omega)
    have hc4 : ¬cnd4 (grid0.coords t) := fun h => by have := (hcnd4 t).mp h; omega
    rw [Dat.leavesExact_idle (dats m 0 c) 4 t (idle4 t (by omega)) (noflush4 t (by omega))]
    rw [PhiS_zero m c _ hA, PhiA_eq, zAt_lt m c t.val (by omega)]
    iintro ⟨⟨⟨HZ, ⟨%dh, HH⟩⟩, Hg⟩, Ho, ⟨%d0, H0⟩, ⟨%d1, H1⟩, ⟨%d2, H2⟩, ⟨%d3, H3⟩, H4⟩
    iapply ((runA c (grid0.coords t) (ms0 t) (hs0 t) (ms1 t) (hs1 t) (ms2 t) (hs2 t) (ms3 t) (hs3 t) (ms4 t) (hs4 t) scZ (Memref.isWhole_whole _) scH (Memref.isWhole_whole _) hc1 hc2 hc3 hc4 (iblk m c 0 t) (iblk m c 1 t) (iblk m c 3 t) dh).2.2 Set.univ _)
    isplitl [H0]; · iexact H0
    isplitl [H1]; · iexact H1
    isplitl [H3]; · iexact H3
    isplitl [HZ]; · iexact HZ
    isplitl [HH]; · iexact HH
    iintro ⟨H0, H1, H3, ⟨%fz, HZ⟩, HH⟩
    isplitl [HZ HH Hg]
    · isplitl [HZ HH]
      · isplitl [HZ]
        · unfold owns; iexists _; isplitr
          swap; · iexact HZ
          ipureintro; rw [runA_Z]
          exact (read_writes_whole _ _ hzero2 _ _).trans (zOne_eq m c t hA)
        · iexists _; isplitr
          swap
          · unfold owns; iexists _; isplitr
            swap; · iexact HH
            ipureintro; rfl
          ipureintro; rw [runA_H, zOne_eq m c t hA]
          exact hinv_step m c t (by omega) _ _ _ (fun y hy => absurd (show (y 0).val < 10000 from (y 0).isLt) (by omega))
      iexact Hg
    isplitl [Ho]; · iexact Ho
    isplitl [H0]; · iexact H0
    isplitl [H1]; · iexact H1
    isplitl [H2]; · iexact H2
    isplitl [H3]; · iexact H3
    iexact H4
  by_cases hB : t.val < 25
  · -- phase 0, a later step
    have hc1 : ¬cnd1 (grid0.coords t) := fun h => hA ((hcnd1 t).mp h)
    have hc2 : ¬cnd2 (grid0.coords t) := fun h => by have := (hcnd2 t).mp h; omega
    have hc3 : cnd3 (grid0.coords t) := (hcnd3 t).mpr hB
    have hc4 : ¬cnd4 (grid0.coords t) := fun h => by have := (hcnd4 t).mp h; omega
    rw [Dat.leavesExact_idle (dats m 0 c) 4 t (idle4 t hB) (noflush4 t hB)]
    rw [PhiS_pos m c _ hA, zAt_lt m c t.val hB, zAt_lt m c (t.val - 1) (by omega)]
    iintro ⟨⟨⟨HZ, ⟨%h, %hh, HH⟩⟩, Hg⟩, Ho, ⟨%d0, H0⟩, ⟨%d1, H1⟩, ⟨%d2, H2⟩, ⟨%d3, H3⟩, H4⟩
    iapply ((runB c (grid0.coords t) (ms0 t) (hs0 t) (ms1 t) (hs1 t) (ms2 t) (hs2 t) (ms3 t) (hs3 t) (ms4 t) (hs4 t) scZ (Memref.isWhole_whole _) scH (Memref.isWhole_whole _) hc1 hc2 hc3 hc4 (iblk m c 3 t) (zOne m c) h).2 Set.univ _)
    isplitl [H3]; · iexact H3
    isplitl [HZ]; · iexact HZ
    isplitl [HH]; · iexact HH
    iintro ⟨H3, HZ, HH⟩
    isplitl [HZ HH Hg]
    · isplitl [HZ HH]
      · isplitl [HZ]; · iexact HZ
        iexists _; isplitr
        swap
        · unfold owns; iexists _; isplitr
          swap; · iexact HH
          ipureintro; rfl
        ipureintro; rw [runB_H]
        exact hinv_step m c t hB _ _ _ (fun y hy => by
          rw [Memref.IsWhole.read_unread]; exact hh y (by omega))
      iexact Hg
    isplitl [Ho]; · iexact Ho
    isplitl [H0]; · iexact H0
    isplitl [H1]; · iexact H1
    isplitl [H2]; · iexact H2
    isplitl [H3]; · iexact H3
    iexact H4
  by_cases hC : t.val = 25
  · -- phase 1, step 0
    have hc1 : ¬cnd1 (grid0.coords t) := fun h => hA ((hcnd1 t).mp h)
    have hc2 : cnd2 (grid0.coords t) := (hcnd2 t).mpr hC
    have hc3 : ¬cnd3 (grid0.coords t) := fun h => hB ((hcnd3 t).mp h)
    have hc4 : cnd4 (grid0.coords t) := (hcnd4 t).mpr (by omega)
    rw [leaves4 m c t (by omega)]
    rw [PhiS_pos m c _ hA, zAt_ge m c t.val (by omega), zAt_lt m c (t.val - 1) (by omega)]
    iintro ⟨⟨⟨HZ, ⟨%h, %hh, HH⟩⟩, Hg⟩, Ho, ⟨%d0, H0⟩, ⟨%d1, H1⟩, ⟨%d2, H2⟩, ⟨%d3, H3⟩, H4⟩
    obtain rfl : h = hid m c := funext fun y => hh y (by omega)
    iapply ((runC c (grid0.coords t) (ms0 t) (hs0 t) (ms1 t) (hs1 t) (ms2 t) (hs2 t) (ms3 t) (hs3 t) (ms4 t) (hs4 t) scZ (Memref.isWhole_whole _) scH (Memref.isWhole_whole _) hc1 hc2 hc3 hc4 (iblk m c 2 t) (iblk m c 3 t) (hid m c)).2.2 Set.univ _)
    isplitl [H2]; · iexact H2
    isplitl [H3]; · iexact H3
    isplitl [H4]; · icases H4 with ⟨%d4, H4⟩; iexists _; iexact H4
    isplitl [HZ]; · iexists _; iexact HZ
    isplitl [HH]; · iexact HH
    iintro ⟨H2, H3, ⟨%fo, H4⟩, ⟨%fz, HZ⟩, HH⟩
    isplitl [HZ HH Hg]
    · isplitl [HZ HH]
      · isplitl [HZ]
        · unfold owns; iexists _; isplitr
          swap; · iexact HZ
          ipureintro; rw [runC_Z]
          exact (read_writes_whole _ _ hzero2 _ _).trans (zTwo_eq m c t hC)
        · iexists _; isplitr
          swap; · iexact HH
          ipureintro; exact fun y _ => rfl
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; rw [runC_O, zTwo_eq m c t hC]
    exact read_writes_whole _ _ hzero2 _ _
  · -- phase 1, a later step
    have hc1 : ¬cnd1 (grid0.coords t) := fun h => hA ((hcnd1 t).mp h)
    have hc2 : ¬cnd2 (grid0.coords t) := fun h => hC ((hcnd2 t).mp h)
    have hc3 : ¬cnd3 (grid0.coords t) := fun h => hB ((hcnd3 t).mp h)
    have hc4 : cnd4 (grid0.coords t) := (hcnd4 t).mpr (by omega)
    rw [leaves4 m c t (by omega)]
    rw [PhiS_pos m c _ hA, zAt_ge m c t.val (by omega), zAt_ge m c (t.val - 1) (by omega)]
    iintro ⟨⟨⟨HZ, HHx⟩, Hg⟩, Ho, ⟨%d0, H0⟩, ⟨%d1, H1⟩, ⟨%d2, H2⟩, ⟨%d3, H3⟩, H4⟩
    iapply ((runD c (grid0.coords t) (ms0 t) (hs0 t) (ms1 t) (hs1 t) (ms2 t) (hs2 t) (ms3 t) (hs3 t) (ms4 t) (hs4 t) scZ (Memref.isWhole_whole _) scH (Memref.isWhole_whole _) hc1 hc2 hc3 hc4 (iblk m c 3 t) (zTwo m c)).2 Set.univ _)
    isplitl [H3]; · iexact H3
    isplitl [H4]; · icases H4 with ⟨%d4, H4⟩; iexists _; iexact H4
    isplitl [HZ]; · iexact HZ
    iintro ⟨H3, ⟨%fo, H4⟩, HZ⟩
    isplitl [HZ HHx Hg]
    · isplitl [HZ HHx]
      · isplitl [HZ]; · iexact HZ
        icases HHx with ⟨%h, %hh, HH⟩
        iexists h; isplitr
        · ipureintro; exact fun y hy => hh y (by omega)
        iexact HH
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; rw [runD_O]
    exact read_writes_whole _ _ hzero2 _ _

/-- The library's body obligation, at every step. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last step the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have := N50; omega), PhiA_eq]
  iintro ⟨⟨HZ, ⟨%h, -, HH⟩⟩, Hg⟩
  isplitl [HZ HH]
  · isplitl [HZ]
    · iexists _; iexact HZ
    iexists _; iexact HH
  iexact Hg

/-! ## The run and the frame -/

set_option backward.isDefEq.respectTransparency.types false in
/-- Every weakly fair execution of @main terminates, with every array of the pipeline at what the library computes from
    the proof data and the arguments as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end, faults nowhere and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.IdealCases.lean ====
/-
  The grid of the fused two-layer graph convolution Y = A·((A·(X·W1))·W2): two phases of 25 steps. The four guards
  of the body in closed form over the 50 grid points, where the result window is idle and where it is written
  back, and the names of the buffers the body is handed.
-/
import proofs.«152283_g90984587198652_cont_sun_m_16_11_alg».proof.Proof.Gen.KernelIdeal.Frame
import proofs.«152283_g90984587198652_cont_sun_m_16_11_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The four branch conditions, as the body computes them from the grid point -/

/-- First guard: phase 0 and step 0 (the first projection X·W1 is computed here). -/
abbrev cnd1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- Second guard: phase 1 and step 0 (the second projection H·W2 is computed here). -/
abbrev cnd2 (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1
/-- Third guard: phase 0 (a row block of H is stored). -/
abbrev cnd3 (i : grid0.Coords) : Prop := k0_cond3 i = 1#1
/-- Fourth guard: phase 1 (a row block of the result is stored). -/
abbrev cnd4 (i : grid0.Coords) : Prop := k0_cond4 i = 1#1

theorem hcnd1 : ∀ t : Fin cfg0.N, cnd1 (grid0.coords t) ↔ t.val = 0 :=
  (by decide +kernel : ∀ t : Fin grid0.N, cnd1 (grid0.coords t) ↔ t.val = 0)
theorem hcnd2 : ∀ t : Fin cfg0.N, cnd2 (grid0.coords t) ↔ t.val = 25 :=
  (by decide +kernel : ∀ t : Fin grid0.N, cnd2 (grid0.coords t) ↔ t.val = 25)
theorem hcnd3 : ∀ t : Fin cfg0.N, cnd3 (grid0.coords t) ↔ t.val < 25 :=
  (by decide +kernel : ∀ t : Fin grid0.N, cnd3 (grid0.coords t) ↔ t.val < 25)
theorem hcnd4 : ∀ t : Fin cfg0.N, cnd4 (grid0.coords t) ↔ 25 ≤ t.val :=
  (by decide +kernel : ∀ t : Fin grid0.N, cnd4 (grid0.coords t) ↔ 25 ≤ t.val)

/-- In phase 0, step i stores rows (24 - i)·400 … of H: the blocks of A are walked backwards. -/
theorem hoff1 : ∀ t : Fin cfg0.N, t.val < 25 → k0_off1 (grid0.coords t) = ![(24 - t.val) * 400, 0] :=
  (by decide +kernel : ∀ t : Fin grid0.N, t.val < 25 → k0_off1 (grid0.coords t) = ![(24 - t.val) * 400, 0])

/-! ## Where the result window is idle, and where its block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The result window is idle exactly in phase 0, -/
theorem idle4 : ∀ t : Fin cfg0.N, t.val < 25 → cfg0.idle 4 (grid0.coords t) = true := by decide +kernel
theorem live4 : ∀ t : Fin cfg0.N, 25 ≤ t.val → cfg0.idle 4 (grid0.coords t) = false := by decide +kernel
/-- and its block is written back after every step of phase 1 and after none of phase 0. -/
theorem noflush4 : ∀ t : Fin cfg0.N, t.val < 25 → (cfg0.win 4).flush t = false :=
  (by decide +kernel : ∀ t : Fin grid0.N, t.val < 25 → win0_4.flush t = false)
theorem flush4 : ∀ t : Fin cfg0.N, 25 ≤ t.val → (cfg0.win 4).flush t = true :=
  (by decide +kernel : ∀ t : Fin grid0.N, 25 ≤ t.val → win0_4.flush t = true)

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S400x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
/-- The two scratch buffers: the projected features z and the hidden layer H. -/
abbrev scZ : Memref sig .tc .vmem S10000x128 .f32 := Memref.whole cc0_scratch0
abbrev scH : Memref sig .tc .vmem S10000x128 .f32 := Memref.whole cc0_scratch1

/-- What the region hands the body beside its windows: both scratch buffers at some contents, and the generator register. -/
theorem PhiA_eq (c : Dev nD) :
    (Pipeline.ΦA spec0 c : sProp 𝕄)
      = iprop(iprop((∃ d, owns (c : Thread nD τ) scZ fullShare d) ∗ (∃ d, owns (c : Thread nD τ) scH fullShare d)) ∗ (∃ r, prngReg c r)) := by
  unfold Pipeline.ΦA; rw [scopedRest0_eq]; simp only [scZ, scH, owns_whole]; try rfl

end Cert.KernelIdeal.Body

end
-- ==== Proof.IdealRuns.lean ====
/-
  The body of the fused graph convolution, run once per control case: at the first step of phase 0 (z := X·W1, then a
  row block of H), at a later step of phase 0 (a row block of H), at the first step of phase 1 (z := H·W2, then a row
  block of the result) and at a later step of phase 1 (a row block of the result). Each run names what the body stored
  as a list of pieces; the lemmas after them give the pieces in closed form over the body's payloads.
-/
import proofs.«152283_g90984587198652_cont_sun_m_16_11_alg».proof.Proof.IdealCases
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- Phase 0, step 0: the body computes z := X·W1 into the first scratch, multiplies the block of A by it and stores the
    product over 400 rows of the second scratch. The pieces each scratch ends with are found by the run. -/
noncomputable def runA (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : cnd1 i) (hc2 : ¬cnd2 i) (hc3 : cnd3 i) (hc4 : ¬cnd4 i)
    (x0 : Vec F S10000x128 .f32) (x1 : Vec F S128x128 .f32) (x3 : Vec F S400x10000 .f32) (xh : Vec F S10000x128 .f32) :
    Σ' (LZ : List (View.Piece (Elt F) S10000x128 .f32)), { LH : List (View.Piece (Elt F) S10000x128 .f32) //
      ∀ (E : Set ℕ) (K : PUnit → sProp 𝕄),
        iprop(owns (c : Thread nD τ) arg2 fullShare x0 ∗ owns (c : Thread nD τ) arg3 fullShare x1 ∗ owns (c : Thread nD τ) arg5 fullShare x3
            ∗ (∃ d, owns (c : Thread nD τ) arg7 fullShare d) ∗ owns (c : Thread nD τ) arg8 fullShare xh
            ∗ (iprop(owns (c : Thread nD τ) arg2 fullShare x0 ∗ owns (c : Thread nD τ) arg3 fullShare x1 ∗ owns (c : Thread nD τ) arg5 fullShare x3
                ∗ (∃ f, arg7.view.loc (c : Thread nD τ) ↦[arg7.view.set]{fullShare} arg7.view.writes (Elt F) f LZ)
                ∗ (arg8.view.loc (c : Thread nD τ) ↦[arg8.view.set]{fullShare} arg8.view.writes (Elt F) (harg8.unread xh) LH)) -∗ K ⟨⟩))
          ⊢ wp frame (wpE (defs₀ (F := F)) Variants.none c none) E (cc0__gcn_kernel i arg2 harg2 arg3 harg3 arg4 harg4 arg5 harg5 arg6 harg6 arg7 harg7 arg8 harg8) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f3, %hf3, H3⟩, ⟨%dz, %fz, -, HZ⟩, ⟨%fh, %hfh, HH⟩, Hk⟩
    obtain rfl := harg2.eq_unread hf0; obtain rfl := harg3.eq_unread hf1; obtain rfl := harg5.eq_unread hf3
    obtain rfl := harg8.eq_unread hfh
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [HZ]; · iexists _; iexact HZ
    iexact HH

set_option maxHeartbeats 1000000 in
/-- Phase 0, a later step: the block of A times the z the first scratch holds, stored over 400 rows of the second. -/
noncomputable def runB (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : ¬cnd2 i) (hc3 : cnd3 i) (hc4 : ¬cnd4 i)
    (x3 : Vec F S400x10000 .f32) (xz : Vec F S10000x128 .f32) (xh : Vec F S10000x128 .f32) :
    { LH : List (View.Piece (Elt F) S10000x128 .f32) //
      ∀ (E : Set ℕ) (K : PUnit → sProp 𝕄),
        iprop(owns (c : Thread nD τ) arg5 fullShare x3 ∗ owns (c : Thread nD τ) arg7 fullShare xz ∗ owns (c : Thread nD τ) arg8 fullShare xh
            ∗ (iprop(owns (c : Thread nD τ) arg5 fullShare x3 ∗ owns (c : Thread nD τ) arg7 fullShare xz
                ∗ (arg8.view.loc (c : Thread nD τ) ↦[arg8.view.set]{fullShare} arg8.view.writes (Elt F) (harg8.unread xh) LH)) -∗ K ⟨⟩))
          ⊢ wp frame (wpE (defs₀ (F := F)) Variants.none c none) E (cc0__gcn_kernel i arg2 harg2 arg3 harg3 arg4 harg4 arg5 harg5 arg6 harg6 arg7 harg7 arg8 harg8) K } := by
  refine ⟨?_, fun E K => ?run⟩
  case run =>
    simp only [cc0__gcn_kernel_eq_skeleton]; unfold cc0__gcn_kernel_skel
    unfold owns
    iintro ⟨⟨%f3, %hf3, H3⟩, ⟨%fz, %hfz, HZ⟩, ⟨%fh, %hfh, HH⟩, Hk⟩
    obtain rfl := harg5.eq_unread hf3; obtain rfl := harg7.eq_unread hfz
    obtain rfl := harg8.eq_unread hfh
    sl_exec (disch := first | exact hc1 | exact hc2 | exact hc3 | exact hc4)
    sl_step
    iapply Hk
    isplitl [H3]
    · iexists _; isplitr; · ipureintro; exact harg5.read_unread _
      iexact H3
    isplitl [HZ]
    · iexists _; isplitr; · ipureintro; exact harg7.read_unread _
      iexact HZ
    iexact HH

set_option maxHeartbeats 1000000 in
/-- Phase 1, step 0: the body computes z := H·W2 from the second scratch into the first, multiplies the block of A by it
    and stores the product into the result's staging buffer. -/
noncomputable def runC (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : cnd2 i) (hc3 : ¬cnd3 i) (hc4 : cnd4 i)
    (x2 : Vec F S128x128 .f32) (x3 : Vec F S400x10000 .f32) (xh : Vec F S10000x128 .f32) :
    Σ' (LO : List (View.Piece (Elt F) S400x128 .f32)), { LZ : List (View.Piece (Elt F) S10000x128 .f32) //
      ∀ (E : Set ℕ) (K : PUnit → sProp 𝕄),
        iprop(owns (c : Thread nD τ) arg4 fullShare x2 ∗ owns (c : Thread nD τ) arg5 fullShare x3 ∗ (∃ d, owns (c : Thread nD τ) arg6 fullShare d)
            ∗ (∃ d, owns (c : Thread nD τ) arg7 fullShare d) ∗ owns (c : Thread nD τ) arg8 fullShare xh
            ∗ (iprop(owns (c : Thread nD τ) arg4 fullShare x2 ∗ owns (c : Thread nD τ) arg5 fullShare x3
                ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LZ)
                ∗ owns (c : Thread nD τ) arg8 fullShare xh) -∗ K ⟨⟩))
          ⊢ wp frame (wpE (defs₀ (F := F)) Variants.none c none) E (cc0__gcn_kernel i arg2 harg2 arg3 harg3 arg4 harg4 arg5 harg5 arg6 harg6 arg7 harg7 arg8 harg8) K } := by
  refine ⟨?_, ?_, fun E K => ?run⟩
  case run =>
    simp only [cc0__gcn_kernel_eq_skeleton]; unfold cc0__gcn_kernel_skel
    unfold owns
    iintro ⟨⟨%f2, %hf2, H2⟩, ⟨%f3, %hf3, H3⟩, ⟨%dO, %fO, -, HO⟩, ⟨%dz, %fz, -, HZ⟩, ⟨%fh, %hfh, HH⟩, Hk⟩
    obtain rfl := harg4.eq_unread hf2; obtain rfl := harg5.eq_unread hf3
    obtain rfl := harg8.eq_unread hfh
    sl_exec (disch := first | exact hc1 | exact hc2 | exact hc3 | exact hc4)
    sl_step
    iapply Hk
    isplitl [H2]
    · iexists _; isplitr; · ipureintro; exact harg4.read_unread _
      iexact H2
    isplitl [H3]
    · iexists _; isplitr; · ipureintro; exact harg5.read_unread _
      iexact H3
    isplitl [HO]; · iexists _; iexact HO
    isplitl [HZ]; · iexists _; iexact HZ
    iexists _; isplitr; · ipureintro; exact harg8.read_unread _
    iexact HH

set_option maxHeartbeats 1000000 in
/-- Phase 1, a later step: the block of A times the z the first scratch holds, stored into the result's staging buffer. -/
noncomputable def runD (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : ¬cnd2 i) (hc3 : ¬cnd3 i) (hc4 : cnd4 i)
    (x3 : Vec F S400x10000 .f32) (xz : Vec F S10000x128 .f32) :
    { LO : List (View.Piece (Elt F) S400x128 .f32) //
      ∀ (E : Set ℕ) (K : PUnit → sProp 𝕄),
        iprop(owns (c : Thread nD τ) arg5 fullShare x3 ∗ (∃ d, owns (c : Thread nD τ) arg6 fullShare d) ∗ owns (c : Thread nD τ) arg7 fullShare xz
            ∗ (iprop(owns (c : Thread nD τ) arg5 fullShare x3
                ∗ (∃ f, arg6.view.loc (c : Thread nD τ) ↦[arg6.view.set]{fullShare} arg6.view.writes (Elt F) f LO)
                ∗ owns (c : Thread nD τ) arg7 fullShare xz) -∗ K ⟨⟩))
          ⊢ wp frame (wpE (defs₀ (F := F)) Variants.none c none) E (cc0__gcn_kernel i arg2 harg2 arg3 harg3 arg4 harg4 arg5 harg5 arg6 harg6 arg7 harg7 arg8 harg8) K } := by
  refine ⟨?_, fun E K => ?run⟩
  case run =>
    simp only [cc0__gcn_kernel_eq_skeleton]; unfold cc0__gcn_kernel_skel
    unfold owns
    iintro ⟨⟨%f3, %hf3, H3⟩, ⟨%dO, %fO, -, HO⟩, ⟨%fz, %hfz, HZ⟩, Hk⟩
    obtain rfl := harg5.eq_unread hf3; obtain rfl := harg7.eq_unread hfz
    sl_exec (disch := first | exact hc1 | exact hc2 | exact hc3 | exact hc4)
    sl_step
    iapply Hk
    isplitl [H3]
    · iexists _; isplitr; · ipureintro; exact harg5.read_unread _
      iexact H3
    isplitl [HO]; · iexists _; iexact HO
    iexists _; isplitr; · ipureintro; exact harg7.read_unread _
    iexact HZ

/-! ## The pieces the runs found, in closed form -/

theorem hzero2 : (![0, 0] : Fin 2 → Nat) = fun _ => 0 := by funext a; fin_cases a <;> rfl

theorem runA_Z (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : cnd1 i) (hc2 : ¬cnd2 i) (hc3 : cnd3 i) (hc4 : ¬cnd4 i)
    (x0 : Vec F S10000x128 .f32) (x1 : Vec F S128x128 .f32) (x3 : Vec F S400x10000 .f32) (xh : Vec F S10000x128 .f32) :
    (runA c i arg2 harg2 arg3 harg3 arg4 harg4 arg5 harg5 arg6 harg6 arg7 harg7 arg8 harg8 hc1 hc2 hc3 hc4 x0 x1 x3 xh).1 = [⟨Rect.unit (s := S10000x128) ![0, 0] S10000x128.size inb_S10000x128_S10000x128_0_0, k0_pay1 x0 x1⟩] := by
  unfold runA
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runA_H (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : cnd1 i) (hc2 : ¬cnd2 i) (hc3 : cnd3 i) (hc4 : ¬cnd4 i)
    (x0 : Vec F S10000x128 .f32) (x1 : Vec F S128x128 .f32) (x3 : Vec F S400x10000 .f32) (xh : Vec F S10000x128 .f32) :
    (runA c i arg2 harg2 arg3 harg3 arg4 harg4 arg5 harg5 arg6 harg6 arg7 harg7 arg8 harg8 hc1 hc2 hc3 hc4 x0 x1 x3 xh).2.1 = [⟨Rect.unit (s := S10000x128) (k0_off1 i) S400x128.size (k0_off1_inb i hc3), k0_pay4 x3 (k0_pay1 x0 x1)⟩] := by
  unfold runA
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runB_H (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : ¬cnd2 i) (hc3 : cnd3 i) (hc4 : ¬cnd4 i)
    (x3 : Vec F S400x10000 .f32) (xz : Vec F S10000x128 .f32) (xh : Vec F S10000x128 .f32) :
    (runB c i arg2 harg2 arg3 harg3 arg4 harg4 arg5 harg5 arg6 harg6 arg7 harg7 arg8 harg8 hc1 hc2 hc3 hc4 x3 xz xh).1 = [⟨Rect.unit (s := S10000x128) (k0_off1 i) S400x128.size (k0_off1_inb i hc3), k0_pay4 x3 xz⟩] := by
  unfold runB
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runC_O (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : cnd2 i) (hc3 : ¬cnd3 i) (hc4 : cnd4 i)
    (x2 : Vec F S128x128 .f32) (x3 : Vec F S400x10000 .f32) (xh : Vec F S10000x128 .f32) :
    (runC c i arg2 harg2 arg3 harg3 arg4 harg4 arg5 harg5 arg6 harg6 arg7 harg7 arg8 harg8 hc1 hc2 hc3 hc4 x2 x3 xh).1 = [⟨Rect.unit (s := S400x128) ![0, 0] S400x128.size inb_S400x128_S400x128_0_0, k0_pay3 x3 (k0_pay2 xh x2)⟩] := by
  unfold runC
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runC_Z (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : cnd2 i) (hc3 : ¬cnd3 i) (hc4 : cnd4 i)
    (x2 : Vec F S128x128 .f32) (x3 : Vec F S400x10000 .f32) (xh : Vec F S10000x128 .f32) :
    (runC c i arg2 harg2 arg3 harg3 arg4 harg4 arg5 harg5 arg6 harg6 arg7 harg7 arg8 harg8 hc1 hc2 hc3 hc4 x2 x3 xh).2.1 = [⟨Rect.unit (s := S10000x128) ![0, 0] S10000x128.size inb_S10000x128_S10000x128_0_0, k0_pay2 xh x2⟩] := by
  unfold runC
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

theorem runD_O (c : Dev nD) (i : grid0.Coords) (arg2 : Memref sig .tc .vmem S10000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S400x10000 .f32) (harg5 : arg5.IsWhole) (arg6 : Memref sig .tc .vmem S400x128 .f32) (harg6 : arg6.IsWhole) (arg7 : Memref sig .tc .vmem S10000x128 .f32) (harg7 : arg7.IsWhole) (arg8 : Memref sig .tc .vmem S10000x128 .f32) (harg8 : arg8.IsWhole)
    (hc1 : ¬cnd1 i) (hc2 : ¬cnd2 i) (hc3 : ¬cnd3 i) (hc4 : cnd4 i)
    (x3 : Vec F S400x10000 .f32) (xz : Vec F S10000x128 .f32) :
    (runD c i arg2 harg2 arg3 harg3 arg4 harg4 arg5 harg5 arg6 harg6 arg7 harg7 arg8 harg8 hc1 hc2 hc3 hc4 x3 xz).1 = [⟨Rect.unit (s := S400x128) ![0, 0] S400x128.size inb_S400x128_S400x128_0_0, k0_pay3 x3 xz⟩] := by
  unfold runD
  dsimp only
  sl_unfold_words
  simp only [View.readAt_eq_ld, harg2.read_unread, harg3.read_unread, harg4.read_unread, harg5.read_unread, harg7.read_unread, harg8.read_unread, View.ld_unit_zero (S := S10000x128) hzero2, View.ld_unit_zero (S := S128x128) hzero2, View.ld_unit_zero (S := S400x10000) hzero2, View.ld_unit_zero (S := S400x128) hzero2, View.readCov_unit_zero (S := S10000x128) arg7.view hzero2]

end Cert.KernelIdeal.Body

end
-- ==== Proof.IdealBody.lean ====
/-
  The frame of the fused graph convolution Y = A·((A·(X·W1))·W2), run as two phases of 25 steps over the row blocks of A.
  What the two scratch buffers hold is carried from step to step: the first holds z (X·W1 in phase 0, H·W2 in phase 1);
  the second is filled with H = A·z, 400 rows per step of phase 0, from the last block down to the first, and is read
  whole at the first step of phase 1. The result's staging buffer is left alone in phase 0 and receives a row block of
  A·z in each step of phase 1.
-/
import proofs.«152283_g90984587198652_cont_sun_m_16_11_alg».proof.Proof.IdealRuns
import Idealize.ShloMosaic.Lib.WritesUnit

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two scratch buffers and the result's staging buffer hold, step by step -/

theorem N50 : cfg0.N = 50 := N_0

/-- The grid point numbered n. -/
abbrev pt (n : ℕ) (h : n < 50) : Fin cfg0.N := ⟨n, lt_of_lt_of_eq h N50.symm⟩

/-- The block of A the pipeline hands the body at point t, as an array of 400 rows. -/
def ablk (c : Dev nD) (t : Fin cfg0.N) : Vec F S400x10000 .f32 := iblk m c 3 t

/-- z during phase 0: the first projection X·W1. -/
def zOne (c : Dev nD) : Vec F S10000x128 .f32 := k0_pay1 (iblk m c 0 (pt 0 (by decide))) (iblk m c 1 (pt 0 (by decide)))

theorem zOne_eq (c : Dev nD) (t : Fin cfg0.N) (h : t.val = 0) : k0_pay1 (iblk m c 0 t) (iblk m c 1 t) = zOne m c := by
  obtain rfl : t = pt 0 (by decide) := Fin.ext h
  rfl

/-- The step of phase 0 that visits row block b of A (the blocks are walked backwards). -/
abbrev ptOfBlk (b : ℕ) : Fin cfg0.N := pt (24 - b) (by omega)

/-- Row r of the 10000 as a row of its block of 400. -/
def rowIn (y : S10000x128.Idx) : S400x128.Idx
  | 0 => ⟨(y 0).val % 400, Nat.mod_lt _ (by decide)⟩
  | 1 => ⟨(y 1).val, (y 1).isLt⟩

/-- The hidden layer H = A·z, one block of 400 rows per step of phase 0: row r is row r mod 400 of the product of the
    block of A that holds row r with z. -/
def hid (c : Dev nD) : Vec F S10000x128 .f32 := fun y =>
  k0_pay4 (ablk m c (ptOfBlk ((y 0).val / 400))) (zOne m c) (rowIn y)

/-- z during phase 1: the second projection H·W2. -/
def zTwo (c : Dev nD) : Vec F S10000x128 .f32 := k0_pay2 (hid m c) (iblk m c 2 (pt 25 (by decide)))

theorem zTwo_eq (c : Dev nD) (t : Fin cfg0.N) (h : t.val = 25) : k0_pay2 (hid m c) (iblk m c 2 t) = zTwo m c := by
  obtain rfl : t = pt 25 (by decide) := Fin.ext h
  rfl

/-- z after step n. -/
def zAt (c : Dev nD) (n : ℕ) : Vec F S10000x128 .f32 := if n < 25 then zOne m c else zTwo m c

theorem zAt_lt (c : Dev nD) (n : ℕ) (h : n < 25) : zAt m c n = zOne m c := if_pos h
theorem zAt_ge (c : Dev nD) (n : ℕ) (h : 25 ≤ n) : zAt m c n = zTwo m c := if_neg (by omega)

/-- The row block of the result a step of phase 1 stores: its block of A times z. -/
def outAt (c : Dev nD) (t : Fin cfg0.N) : Vec F S400x128 .f32 := k0_pay3 (ablk m c t) (zTwo m c)

/-- After step n of phase 0 the second scratch holds H on the rows of the blocks visited so far: rows (24 - n)·400 and up.
    (From step 24 on: everywhere.) -/
def HInv (c : Dev nD) (n : ℕ) (h : Vec F S10000x128 .f32) : Prop :=
  ∀ y : S10000x128.Idx, (24 - n) * 400 ≤ (y 0).val → h y = hid m c y

/-- One store through the whole of a buffer leaves its payload. -/
theorem read_writes_whole {sg : RefSig} {κ : Kind} {sp : Space} {S : Shape} {e : EltTy} (v : View sg κ sp S e) (f : v.ty.Contents (Elt F))
    {off : Fin S.rank → ℕ} (h : off = fun _ => 0) (inb : ∀ a, off a + S.size a ≤ S.size a) (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- The store of step t of phase 0 extends the rows on which the second scratch holds H by the block the step visits. -/
theorem hinv_step (c : Dev nD) (t : Fin cfg0.N) (ht : t.val < 25) (v : View sig .tc .vmem S10000x128 .f32) (f : v.ty.Contents (Elt F))
    (inb : ∀ a, k0_off1 (grid0.coords t) a + S400x128.size a ≤ S10000x128.size a)
    (hprev : ∀ y : S10000x128.Idx, (24 - t.val + 1) * 400 ≤ (y 0).val → v.read (Elt F) f y = hid m c y) :
    HInv m c t.val (v.read (Elt F) (v.writes (Elt F) f
      [(⟨Rect.unit (s := S10000x128) (k0_off1 (grid0.coords t)) S400x128.size inb, k0_pay4 (ablk m c t) (zOne m c)⟩ : View.Piece (Elt F) S10000x128 .f32)])) := by
  intro y hy
  by_cases hlt : (y 0).val < (24 - t.val) * 400 + 400
  · have hx0 : (y (0 : Fin 2)).val = (24 - t.val) * 400 + (rowIn y (0 : Fin 2)).val := by
      show (y 0).val = (24 - t.val) * 400 + (y 0).val % 400
      omega
    have hx1 : (y (1 : Fin 2)).val = (rowIn y (1 : Fin 2)).val := rfl
    refine (View.read_writes_cons_rows_of_mem v f inb _ [] y (rowIn y) (hoff1 t ht) hx0 hx1).trans ?_
    have hb : ptOfBlk ((y 0).val / 400) = t := Fin.ext (by show 24 - (y 0).val / 400 = t.val; omega)
    unfold hid
    rw [hb]
  · refine (View.read_writes_cons_rows_of_not_mem (W := 400) v f inb _ [] y (hoff1 t ht) rfl (Or.inr (by omega))).trans ?_
    exact hprev y (by omega)

/-! ## The region invariant and the proof data -/

/-- Before step n: at the start both scratch buffers hold anything; afterwards the first holds z and the second holds H on
    the rows stored so far. -/
def PhiS (c : Dev nD) : (n : ℕ) → sProp 𝕄
  | 0 => Pipeline.ΦA spec0 c
  | n + 1 => iprop(iprop(owns (c : Thread nD τ) scZ fullShare (zAt m c n)
      ∗ (∃ h, ⌜HInv m c n h⌝ ∗ owns (c : Thread nD τ) scH fullShare h)) ∗ (∃ r, prngReg c r))

theorem PhiS_zero (c : Dev nD) (n : ℕ) (hz : n = 0) : PhiS m c n = Pipeline.ΦA spec0 c := by subst hz; rfl

theorem PhiS_succ (c : Dev nD) (n : ℕ) :
    PhiS m c (n + 1) = iprop(iprop(owns (c : Thread nD τ) scZ fullShare (zAt m c n)
      ∗ (∃ h, ⌜HInv m c n h⌝ ∗ owns (c : Thread nD τ) scH fullShare h)) ∗ (∃ r, prngReg c r)) := rfl

theorem PhiS_pos (c : Dev nD) (n : ℕ) (hz : n ≠ 0) :
    PhiS m c n = iprop(iprop(owns (c : Thread nD τ) scZ fullShare (zAt m c (n - 1))
      ∗ (∃ h, ⌜HInv m c (n - 1) h⌝ ∗ owns (c : Thread nD τ) scH fullShare h)) ∗ (∃ r, prngReg c r)) := by
  cases n with
  | zero => exact absurd rfl hz
  | succ n => rfl

/-- The proof data: the arrays as the region finds them; every input's buffer left at its block; the result's buffer left
    at its block of A times z; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) (h : 25 ≤ t.val) : (dats m 0 c).leavesExact 4 t = owns (c : Thread nD τ) (ms4 t) fullShare (outAt m c t) := by
  unfold Dat.leavesExact; rw [live4 t h, after4]

set_option maxHeartbeats 4000000 in
/-- The body at any step: which of the four cases the step is in is read off its number; the run of that case applies;
    the invariant hands over the scratch buffers at what the step before left and takes them back at what this step leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, PhiS_succ, PhiS_castSucc]
  rw [leaves0, leaves1, leaves2, leaves3]
  have hN : t.val < 50 := lt_of_lt_of_eq t.isLt N50
  by_cases hA : t.val = 0
  · -- phase 0, step 0
    have hc1 : cnd1 (grid0.coords t) := (hcnd1 t).mpr hA
    have hc2 : ¬cnd2 (grid0.coords t) := fun h => by have := (hcnd2 t).mp h; omega
    have hc3 : cnd3 (grid0.coords t) := (hcnd3 t).mpr (by omega)
    have hc4 : ¬cnd4 (grid0.coords t) := fun h => by have := (hcnd4 t).mp h; omega
    rw [Dat.leavesExact_idle (dats m 0 c) 4 t (idle4 t (by omega)) (noflush4 t (by omega))]
    rw [PhiS_zero m c _ hA, PhiA_eq, zAt_lt m c t.val (by omega)]
    iintro ⟨⟨⟨HZ, ⟨%dh, HH⟩⟩, Hg⟩, Ho, ⟨%d0, H0⟩, ⟨%d1, H1⟩, ⟨%d2, H2⟩, ⟨%d3, H3⟩, H4⟩
    iapply ((runA c (grid0.coords t) (ms0 t) (hs0 t) (ms1 t) (hs1 t) (ms2 t) (hs2 t) (ms3 t) (hs3 t) (ms4 t) (hs4 t) scZ (Memref.isWhole_whole _) scH (Memref.isWhole_whole _) hc1 hc2 hc3 hc4 (iblk m c 0 t) (iblk m c 1 t) (iblk m c 3 t) dh).2.2 Set.univ _)
    isplitl [H0]; · iexact H0
    isplitl [H1]; · iexact H1
    isplitl [H3]; · iexact H3
    isplitl [HZ]; · iexact HZ
    isplitl [HH]; · iexact HH
    iintro ⟨H0, H1, H3, ⟨%fz, HZ⟩, HH⟩
    isplitl [HZ HH Hg]
    · isplitl [HZ HH]
      · isplitl [HZ]
        · unfold owns; iexists _; isplitr
          swap; · iexact HZ
          ipureintro; rw [runA_Z]
          exact (read_writes_whole _ _ hzero2 _ _).trans (zOne_eq m c t hA)
        · iexists _; isplitr
          swap
          · unfold owns; iexists _; isplitr
            swap; · iexact HH
            ipureintro; rfl
          ipureintro; rw [runA_H, zOne_eq m c t hA]
          exact hinv_step m c t (by omega) _ _ _ (fun y hy => absurd (show (y 0).val < 10000 from (y 0).isLt) (by omega))
      iexact Hg
    isplitl [Ho]; · iexact Ho
    isplitl [H0]; · iexact H0
    isplitl [H1]; · iexact H1
    isplitl [H2]; · iexact H2
    isplitl [H3]; · iexact H3
    iexact H4
  by_cases hB : t.val < 25
  · -- phase 0, a later step
    have hc1 : ¬cnd1 (grid0.coords t) := fun h => hA ((hcnd1 t).mp h)
    have hc2 : ¬cnd2 (grid0.coords t) := fun h => by have := (hcnd2 t).mp h; omega
    have hc3 : cnd3 (grid0.coords t) := (hcnd3 t).mpr hB
    have hc4 : ¬cnd4 (grid0.coords t) := fun h => by have := (hcnd4 t).mp h; omega
    rw [Dat.leavesExact_idle (dats m 0 c) 4 t (idle4 t hB) (noflush4 t hB)]
    rw [PhiS_pos m c _ hA, zAt_lt m c t.val hB, zAt_lt m c (t.val - 1) (by omega)]
    iintro ⟨⟨⟨HZ, ⟨%h, %hh, HH⟩⟩, Hg⟩, Ho, ⟨%d0, H0⟩, ⟨%d1, H1⟩, ⟨%d2, H2⟩, ⟨%d3, H3⟩, H4⟩
    iapply ((runB c (grid0.coords t) (ms0 t) (hs0 t) (ms1 t) (hs1 t) (ms2 t) (hs2 t) (ms3 t) (hs3 t) (ms4 t) (hs4 t) scZ (Memref.isWhole_whole _) scH (Memref.isWhole_whole _) hc1 hc2 hc3 hc4 (iblk m c 3 t) (zOne m c) h).2 Set.univ _)
    isplitl [H3]; · iexact H3
    isplitl [HZ]; · iexact HZ
    isplitl [HH]; · iexact HH
    iintro ⟨H3, HZ, HH⟩
    isplitl [HZ HH Hg]
    · isplitl [HZ HH]
      · isplitl [HZ]; · iexact HZ
        iexists _; isplitr
        swap
        · unfold owns; iexists _; isplitr
          swap; · iexact HH
          ipureintro; rfl
        ipureintro; rw [runB_H]
        exact hinv_step m c t hB _ _ _ (fun y hy => by
          rw [Memref.IsWhole.read_unread]; exact hh y (by omega))
      iexact Hg
    isplitl [Ho]; · iexact Ho
    isplitl [H0]; · iexact H0
    isplitl [H1]; · iexact H1
    isplitl [H2]; · iexact H2
    isplitl [H3]; · iexact H3
    iexact H4
  by_cases hC : t.val = 25
  · -- phase 1, step 0
    have hc1 : ¬cnd1 (grid0.coords t) := fun h => hA ((hcnd1 t).mp h)
    have hc2 : cnd2 (grid0.coords t) := (hcnd2 t).mpr hC
    have hc3 : ¬cnd3 (grid0.coords t) := fun h => hB ((hcnd3 t).mp h)
    have hc4 : cnd4 (grid0.coords t) := (hcnd4 t).mpr (by omega)
    rw [leaves4 m c t (by omega)]
    rw [PhiS_pos m c _ hA, zAt_ge m c t.val (by omega), zAt_lt m c (t.val - 1) (by omega)]
    iintro ⟨⟨⟨HZ, ⟨%h, %hh, HH⟩⟩, Hg⟩, Ho, ⟨%d0, H0⟩, ⟨%d1, H1⟩, ⟨%d2, H2⟩, ⟨%d3, H3⟩, H4⟩
    obtain rfl : h = hid m c := funext fun y => hh y (by omega)
    iapply ((runC c (grid0.coords t) (ms0 t) (hs0 t) (ms1 t) (hs1 t) (ms2 t) (hs2 t) (ms3 t) (hs3 t) (ms4 t) (hs4 t) scZ (Memref.isWhole_whole _) scH (Memref.isWhole_whole _) hc1 hc2 hc3 hc4 (iblk m c 2 t) (iblk m c 3 t) (hid m c)).2.2 Set.univ _)
    isplitl [H2]; · iexact H2
    isplitl [H3]; · iexact H3
    isplitl [H4]; · icases H4 with ⟨%d4, H4⟩; iexists _; iexact H4
    isplitl [HZ]; · iexists _; iexact HZ
    isplitl [HH]; · iexact HH
    iintro ⟨H2, H3, ⟨%fo, H4⟩, ⟨%fz, HZ⟩, HH⟩
    isplitl [HZ HH Hg]
    · isplitl [HZ HH]
      · isplitl [HZ]
        · unfold owns; iexists _; isplitr
          swap; · iexact HZ
          ipureintro; rw [runC_Z]
          exact (read_writes_whole _ _ hzero2 _ _).trans (zTwo_eq m c t hC)
        · iexists _; isplitr
          swap; · iexact HH
          ipureintro; exact fun y _ => rfl
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; rw [runC_O, zTwo_eq m c t hC]
    exact read_writes_whole _ _ hzero2 _ _
  · -- phase 1, a later step
    have hc1 : ¬cnd1 (grid0.coords t) := fun h => hA ((hcnd1 t).mp h)
    have hc2 : ¬cnd2 (grid0.coords t) := fun h => hC ((hcnd2 t).mp h)
    have hc3 : ¬cnd3 (grid0.coords t) := fun h => hB ((hcnd3 t).mp h)
    have hc4 : cnd4 (grid0.coords t) := (hcnd4 t).mpr (by omega)
    rw [leaves4 m c t (by omega)]
    rw [PhiS_pos m c _ hA, zAt_ge m c t.val (by omega), zAt_ge m c (t.val - 1) (by omega)]
    iintro ⟨⟨⟨HZ, HHx⟩, Hg⟩, Ho, ⟨%d0, H0⟩, ⟨%d1, H1⟩, ⟨%d2, H2⟩, ⟨%d3, H3⟩, H4⟩
    iapply ((runD c (grid0.coords t) (ms0 t) (hs0 t) (ms1 t) (hs1 t) (ms2 t) (hs2 t) (ms3 t) (hs3 t) (ms4 t) (hs4 t) scZ (Memref.isWhole_whole _) scH (Memref.isWhole_whole _) hc1 hc2 hc3 hc4 (iblk m c 3 t) (zTwo m c)).2 Set.univ _)
    isplitl [H3]; · iexact H3
    isplitl [H4]; · icases H4 with ⟨%d4, H4⟩; iexists _; iexact H4
    isplitl [HZ]; · iexact HZ
    iintro ⟨H3, ⟨%fo, H4⟩, HZ⟩
    isplitl [HZ HHx Hg]
    · isplitl [HZ HHx]
      · isplitl [HZ]; · iexact HZ
        icases HHx with ⟨%h, %hh, HH⟩
        iexists h; isplitr
        · ipureintro; exact fun y hy => hh y (by omega)
        iexact HH
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; rw [runD_O]
    exact read_writes_whole _ _ hzero2 _ _

/-- The library's body obligation, at every step. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After the last step the invariant gives the scratch buffers back at some contents. -/
theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have := N50; omega), PhiA_eq]
  iintro ⟨⟨HZ, ⟨%h, -, HH⟩⟩, Hg⟩
  isplitl [HZ HH]
  · isplitl [HZ]
    · iexists _; iexact HZ
    iexists _; iexact HH
  iexact Hg

/-! ## The run and the frame -/

set_option backward.isDefEq.respectTransparency.types false in
/-- Every weakly fair execution of @main terminates, with every array of the pipeline at what the library computes from
    the proof data and the arguments as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to its end, faults nowhere and leaves its four arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibRowMatmul.lean ====
/-
  General facts at the ideal values, for any sizes.

  A matrix product into the zero accumulator read at an entry, for the two ways a rank-2 pair is contracted here:
  rows against rows (the last axis of both operands: `A · Bᵀ`) and rows against columns (`A · B`). Each is the plain
  finite sum over the contracted coordinate. The dimension numbers are any record with one contracted axis whose
  kept coordinates are the output's; a caller supplies those coordinate facts for its own record.

  And the maximum along the rows of an `a × b` array, and the host's maximum along the last axis of an
  `n0 × n1 × n2` array, each as the fold of `max` from the starting value over the coordinates of that axis.
-/
import Idealize.ShloMosaic.PureOps.Ideal.Laws
import Idealize.ShloMosaic.PureOps.Reduce
import Idealize.ShloMosaic.Lib.ValueIdx

namespace Cert.Lib.RowMatmul

open Idealize.ShloMosaic Idealize.ShloMosaic.ValueIdx

/-- Rows against rows: `(A · Bᵀ)(a, b) = ∑ c, A(a, c) · B(b, c)`. -/
theorem matmul_rows_apply {m k n : ℕ} {φ₁ φ₂ : FTy} (D : DotDims ⟨2, ![m, k]⟩ ⟨2, ![n, k]⟩ ⟨2, ![m, n]⟩)
    (hl : D.lhsContracting = [1]) (hr : D.rhsContracting = [1])
    (hrank : D.contr.rank = 1) (hsize : D.contr.size ⟨0, by omega⟩ = k)
    (h0 : ∀ j q, (D.lhsIdx j q 0).val = (j 0).val) (h1 : ∀ j q, (D.rhsIdx j q 0).val = (j 1).val)
    (prec : Option ContractPrecision) (A : FVec Ideal ⟨2, ![m, k]⟩ φ₁) (B : FVec Ideal ⟨2, ![n, k]⟩ φ₂)
    (a : Fin m) (b : Fin n) :
    matmul D prec A B (constant ⟨2, ![m, n]⟩ .f32 0x00000000#32) (ix2 a b) = ∑ c : Fin k, A (ix2 a c) * B (ix2 b c) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 b c := funext fun ax => Fin.ext (by
    match ax with
    | ⟨0, _⟩ => exact h1 _ _
    | ⟨1, _⟩ => exact (D.rhsIdx_val_of_single hr _ _).trans hk)
  rw [el, er]

/-- Rows against columns: `(A · B)(a, b) = ∑ c, A(a, c) · B(c, b)`. -/
theorem matmul_cols_apply {m k n : ℕ} {φ₁ φ₂ : FTy} (D : DotDims ⟨2, ![m, k]⟩ ⟨2, ![k, n]⟩ ⟨2, ![m, n]⟩)
    (hl : D.lhsContracting = [1]) (hr : D.rhsContracting = [0])
    (hrank : D.contr.rank = 1) (hsize : D.contr.size ⟨0, by omega⟩ = k)
    (h0 : ∀ j q, (D.lhsIdx j q 0).val = (j 0).val) (h1 : ∀ j q, (D.rhsIdx j q 1).val = (j 1).val)
    (prec : Option ContractPrecision) (A : FVec Ideal ⟨2, ![m, k]⟩ φ₁) (B : FVec Ideal ⟨2, ![k, n]⟩ φ₂)
    (a : Fin m) (b : Fin n) :
    matmul D prec A B (constant ⟨2, ![m, n]⟩ .f32 0x00000000#32) (ix2 a b) = ∑ c : Fin k, A (ix2 a c) * B (ix2 c b) := by
  simp only [matmul]
  rw [Ideal.matmul_constant_zero_apply, ← Equiv.sum_comp (contrEquiv1 D k hrank hsize).symm]
  refine Finset.sum_congr rfl fun c _ => ?_
  have hk := contrEquiv1_symm_val D k hrank hsize c
  have el : D.lhsIdx (ix2 a b) ((contrEquiv1 D k hrank hsize).symm c) = ix2 a c := funext fun ax => Fin.ext (by
    match ax with
    | ⟨0, _⟩ => exact h0 _ _
    | ⟨1, _⟩ => exact (D.lhsIdx_val_of_single hl _ _).trans hk)
  have er : D.rhsIdx (ix2 a b) ((contrEquiv1 D k hrank hsize).symm c) = ix2 c b := funext fun ax => Fin.ext (by
    match ax with
    | ⟨0, _⟩ => exact (D.rhsIdx_val_of_single hr _ _).trans hk
    | ⟨1, _⟩ => exact h1 _ _)
  rw [el, er]

/-- The maximum along each row of an `a × b` array: at row `r`, the fold of `max` from the accumulator's value
    over the `b` columns. -/
theorem rowMax_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun f => Finset.fold max (Ideal.ofBits φ acc) f (Finset.univ : Finset (Fin b))) ?_
  funext k
  refine congrArg src ?_
  funext ax; apply Fin.ext
  match ax with
  | ⟨0, _⟩ => rfl
  | ⟨1, _⟩ => rfl

/-- The host's maximum along the last axis of an `n0 × n1 × n2` array: at `(p, q)`, the fold of `max` from the
    starting value over the `n2` coordinates. -/
theorem hostLastMax_apply {n0 n1 n2 : ℕ} {φ : FTy} {u : Shape} (x : FVec Ideal ⟨3, ![n0, n1, n2]⟩ φ) (init : u.Idx → Ideal φ)
    (h' : Shape.ReducesTo ⟨3, ![n0, n1, n2]⟩ [2] ⟨2, ![n0, n1]⟩) (h : Shape.Reduces ⟨3, ![n0, n1, n2]⟩ [2] ⟨2, ![n0, n1]⟩)
    (hu : 0 < u.numel) (p : Fin n0) (q : Fin n1) :
    Host.reduce FloatOps.maximumf x init h' hu (ix2 p q)
      = (Finset.univ : Finset (Fin n2)).fold max (init (Shape.Idx.first hu)) (fun k => x (ix3 p q k)) := by
  refine (Host.reduce_eq_fold_single FloatOps.maximumf x init h' h hu (ix2 p q)).trans ?_
  refine congrArg (fun f => Finset.fold max (init (Shape.Idx.first hu)) f (Finset.univ : Finset (Fin n2))) ?_
  funext k
  refine congrArg x ?_
  funext ax; apply Fin.ext
  match ax with
  | ⟨0, _⟩ => rfl
  | ⟨1, _⟩ => rfl
  | ⟨2, _⟩ => rfl

end Cert.Lib.RowMatmul
-- ==== Proof.GcnSpec.lean ====
/-
  The two-layer graph convolution on the extended reals, index by index: Y = A·((A·(X·W1))·W2) for 10000 nodes with
  128 features, A the dense 10000 × 10000 propagation matrix. A projection multiplies the feature rows by a 128 × 128
  weight matrix, a propagation takes for every node the A-weighted sum of all nodes' rows; the layer pair is
  propagate ∘ project ∘ propagate ∘ project, each a plain finite sum.
-/
import Idealize.ShloMosaic.PureOps.Ideal
import Idealize.ShloMosaic.Lib.ValueIdx

noncomputable section

open scoped BigOperators

namespace Cert.Gcn

open Idealize.ShloMosaic Idealize.ShloMosaic.ValueIdx

abbrev SN : Shape := ⟨2, ![10000, 128]⟩
abbrev SA : Shape := ⟨2, ![10000, 10000]⟩
abbrev SW : Shape := ⟨2, ![128, 128]⟩

/-- Features times weights: (Z·W)(r, k) = ∑ v, Z(r, v)·W(v, k). -/
def proj (Z : FVec Ideal SN .f32) (W : FVec Ideal SW .f32) : FVec Ideal SN .f32 :=
  fun j => ∑ v : Fin 128, Z (ix2 (j 0) v) * W (ix2 v (j 1))

/-- Propagation along the graph: (A·Z)(r, k) = ∑ s, A(r, s)·Z(s, k). -/
def prop (A : FVec Ideal SA .f32) (Z : FVec Ideal SN .f32) : FVec Ideal SN .f32 :=
  fun j => ∑ s : Fin 10000, A (ix2 (j 0) s) * Z (ix2 s (j 1))

/-- The layer pair. -/
def gcn (X : FVec Ideal SN .f32) (A : FVec Ideal SA .f32) (W1 W2 : FVec Ideal SW .f32) : FVec Ideal SN .f32 :=
  prop A (proj (prop A (proj X W1)) W2)

theorem proj_ix2 (Z : FVec Ideal SN .f32) (W : FVec Ideal SW .f32) (r : Fin 10000) (k : Fin 128) :
    proj Z W (ix2 r k) = ∑ v : Fin 128, Z (ix2 r v) * W (ix2 v k) := rfl

theorem prop_ix2 (A : FVec Ideal SA .f32) (Z : FVec Ideal SN .f32) (r : Fin 10000) (k : Fin 128) :
    prop A Z (ix2 r k) = ∑ s : Fin 10000, A (ix2 r s) * Z (ix2 s k) := rfl

end Cert.Gcn

end
-- ==== Proof.IdealValue.lean ====
/-
  What the fused kernel leaves in its result array, at the extended reals: the layer pair of GcnSpec, index by index.
  Each matrix product of the body is a plain sum; a block of A read at (a, s) is A at the block's first row plus a; the
  hidden layer the second scratch accumulates, 400 rows per step, is A·(X·W1) at every row; and the result's 25 row
  blocks, written back one per step of phase 1, tile the 10000 rows.
-/
import proofs.«152283_g90984587198652_cont_sun_m_16_11_alg».proof.Proof.IdealBody
import proofs.«152283_g90984587198652_cont_sun_m_16_11_alg».proof.Proof.LibRowMatmul
import proofs.«152283_g90984587198652_cont_sun_m_16_11_alg».proof.Proof.GcnSpec
import Idealize.ShloMosaic.Lib.Pipeline.Value
import Idealize.ShloMosaic.Lib.ValueIdx

set_option maxRecDepth 16384

noncomputable section

open scoped BigOperators

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Gcn Cert.Lib.RowMatmul

variable (m : (ℓ : Loc nD τ sig) → Buf (Elt Ideal) ℓ) (ρ : Dev nD → PrngReg)

/-! ## The printed index maps, decided over the grid -/

theorem idx_in : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_4.index t (1 : Fin 2) = 0 :=
  (by decide +kernel : ∀ t : Fin grid0.N, _)

/-- Phase 0 walks the row blocks of A backwards, -/
theorem idx_A0 : ∀ t : Fin cfg0.N, t.val < 25 → win0_3.index t (0 : Fin 2) = 24 - t.val :=
  (by decide +kernel : ∀ t : Fin grid0.N, t.val < 25 → win0_3.index t (0 : Fin 2) = 24 - t.val)
/-- phase 1 forwards, the result's block moving with it. -/
theorem idx_A1 : ∀ t : Fin cfg0.N, 25 ≤ t.val → win0_3.index t (0 : Fin 2) = t.val - 25 ∧ win0_4.index t (0 : Fin 2) = t.val - 25 :=
  (by decide +kernel : ∀ t : Fin grid0.N, 25 ≤ t.val → win0_3.index t (0 : Fin 2) = t.val - 25 ∧ win0_4.index t (0 : Fin 2) = t.val - 25)

/-! ## The coordinate facts of the two contraction records -/

theorem d1_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d1_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
theorem d2_l0 (i : S400x128.Idx) (q : dot_S400x10000_S10000x128_S400x128_1_0_0_1_n_n.contr.Idx) : (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem d2_r1 (i : S400x128.Idx) (q : dot_S400x10000_S10000x128_S400x128_1_0_0_1_n_n.contr.Idx) : (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-! ## The windows' blocks read at an index -/

/-- The feature block is the whole of X. -/
theorem x_apply (c : Dev nD) (t : Fin cfg0.N) (u : Fin 10000) (v : Fin 128) :
    iblk m c 0 t (ix2 u v) = V m c main_arg0 (ix2 u v) := by
  obtain ⟨e0, e1, -⟩ := idx_in t
  show V m c main_arg0 (((cfg0.win 0).blk t).view.emb (ix2 u v)) = _
  congr 1; funext a; apply Fin.ext
  match a with
  | ⟨0, _⟩ => show win0_0.index t (0 : Fin 2) * 10000 + 1 * u.val = u.val; omega
  | ⟨1, _⟩ => show win0_0.index t (1 : Fin 2) * 128 + 1 * v.val = v.val; omega

/-- The first weight block is the whole of W1, -/
theorem w1_apply (c : Dev nD) (t : Fin cfg0.N) (u : Fin 128) (v : Fin 128) :
    iblk m c 1 t (ix2 u v) = V m c main_arg2 (ix2 u v) := by
  obtain ⟨-, -, e0, e1, -⟩ := idx_in t
  show V m c main_arg2 (((cfg0.win 1).blk t).view.emb (ix2 u v)) = _
  congr 1; funext a; apply Fin.ext
  match a with
  | ⟨0, _⟩ => show win0_1.index t (0 : Fin 2) * 128 + 1 * u.val = u.val; omega
  | ⟨1, _⟩ => show win0_1.index t (1 : Fin 2) * 128 + 1 * v.val = v.val; omega

/-- and the second the whole of W2. -/
theorem w2_apply (c : Dev nD) (t : Fin cfg0.N) (u : Fin 128) (v : Fin 128) :
    iblk m c 2 t (ix2 u v) = V m c main_arg3 (ix2 u v) := by
  obtain ⟨-, -, -, -, e0, e1, -⟩ := idx_in t
  show V m c main_arg3 (((cfg0.win 2).blk t).view.emb (ix2 u v)) = _
  congr 1; funext a; apply Fin.ext
  match a with
  | ⟨0, _⟩ => show win0_2.index t (0 : Fin 2) * 128 + 1 * u.val = u.val; omega
  | ⟨1, _⟩ => show win0_2.index t (1 : Fin 2) * 128 + 1 * v.val = v.val; omega

/-- Row a of the block of A at point t is row (block index)·400 + a of A. -/
theorem ablk_apply (c : Dev nD) (t : Fin cfg0.N) (a : Fin 400) (s r : Fin 10000)
    (hr : r.val = win0_3.index t (0 : Fin 2) * 400 + a.val) :
    ablk m c t (ix2 a s) = V m c main_arg1 (ix2 r s) := by
  obtain ⟨-, -, -, -, -, -, e1, -⟩ := idx_in t
  show V m c main_arg1 (((cfg0.win 3).blk t).view.emb (ix2 a s)) = _
  congr 1; funext ax; apply Fin.ext
  match ax with
  | ⟨0, _⟩ => show win0_3.index t (0 : Fin 2) * 400 + 1 * a.val = r.val; omega
  | ⟨1, _⟩ => show win0_3.index t (1 : Fin 2) * 10000 + 1 * s.val = s.val; omega

/-! ## The body's values as the layers of the specification -/

theorem rowIn_ix2 (s : Fin 10000) (j : Fin 128) :
    rowIn (ix2 s j) = ix2 (⟨s.val % 400, Nat.mod_lt _ (by decide)⟩ : Fin 400) j := by
  funext a; match a with | ⟨0, _⟩ => rfl | ⟨1, _⟩ => rfl

/-- z of phase 0 is the projected features X·W1. -/
theorem zOne_fn (c : Dev nD) : zOne m c = proj (V m c main_arg0) (V m c main_arg2) := by
  funext y
  obtain ⟨u, j, rfl⟩ : ∃ (u : Fin 10000) (j : Fin 128), y = ix2 u j := ⟨y 0, y 1, eq_ix2 y⟩
  unfold zOne k0_pay1
  (try dsimp only)
  refine (congrFun (shapeCast_self _ _) _).trans ?_
  refine (matmul_cols_apply dot_S10000x128_S128x128_S10000x128_1_0_0_1_n_n rfl rfl rfl rfl d1_l0 d1_r1 none _ _ u j).trans ?_
  rw [proj_ix2]
  refine Finset.sum_congr rfl fun v _ => ?_
  exact congrArg₂ (· * ·) (x_apply m c _ u v) (w1_apply m c _ v j)

/-- The hidden layer is A·(X·W1): the row blocks stored step by step are the rows of one product. -/
theorem hid_fn (c : Dev nD) : hid m c = prop (V m c main_arg1) (proj (V m c main_arg0) (V m c main_arg2)) := by
  funext y
  obtain ⟨s, j, rfl⟩ : ∃ (s : Fin 10000) (j : Fin 128), y = ix2 s j := ⟨y 0, y 1, eq_ix2 y⟩
  have hs : s.val < 10000 := s.isLt
  show k0_pay4 (ablk m c (ptOfBlk (s.val / 400))) (zOne m c) (rowIn (ix2 s j)) = _
  rw [rowIn_ix2, zOne_fn]
  unfold k0_pay4 k0_pay3
  (try dsimp only)
  refine (congrFun (shapeCast_self _ _) _).trans ?_
  refine (matmul_cols_apply dot_S400x10000_S10000x128_S400x128_1_0_0_1_n_n rfl rfl rfl rfl d2_l0 d2_r1 none _ _ _ j).trans ?_
  rw [prop_ix2]
  refine Finset.sum_congr rfl fun u _ => ?_
  refine congrArg₂ (· * ·) (ablk_apply m c _ _ u s ?_) rfl
  rw [idx_A0 (ptOfBlk (s.val / 400)) (by show 24 - s.val / 400 < 25; omega)]
  show s.val = (24 - (24 - s.val / 400)) * 400 + s.val % 400
  omega

/-- z of phase 1 is the projected hidden layer H·W2. -/
theorem zTwo_fn (c : Dev nD) :
    zTwo m c = proj (prop (V m c main_arg1) (proj (V m c main_arg0) (V m c main_arg2))) (V m c main_arg3) := by
  funext y
  obtain ⟨u, j, rfl⟩ : ∃ (u : Fin 10000) (j : Fin 128), y = ix2 u j := ⟨y 0, y 1, eq_ix2 y⟩
  unfold zTwo k0_pay2
  rw [hid_fn]
  (try dsimp only)
  refine (congrFun (shapeCast_self _ _) _).trans ?_
  refine (matmul_cols_apply dot_S10000x128_S128x128_S10000x128_1_0_0_1_n_n rfl rfl rfl rfl d1_l0 d1_r1 none _ _ u j).trans ?_
  rw [proj_ix2]
  refine Finset.sum_congr rfl fun v _ => ?_
  exact congrArg₂ (· * ·) rfl (w2_apply m c _ v j)

/-- The kernel's result as one function of the argument arrays. -/
def GK (c : Dev nD) : S10000x128.Idx → Ideal .f32 :=
  gcn (V m c main_arg0) (V m c main_arg1) (V m c main_arg2) (V m c main_arg3)

/-- A step of phase 1 stores the rows of the layer pair its block of A covers. -/
theorem outAt_apply (c : Dev nD) (t : Fin cfg0.N) (ht : 25 ≤ t.val) (a : Fin 400) (k : Fin 128) (r : Fin 10000)
    (hr : r.val = (t.val - 25) * 400 + a.val) :
    outAt m c t (ix2 a k) = GK m c (ix2 r k) := by
  unfold outAt k0_pay3
  rw [zTwo_fn]
  (try dsimp only)
  refine (matmul_cols_apply dot_S400x10000_S10000x128_S400x128_1_0_0_1_n_n rfl rfl rfl rfl d2_l0 d2_r1 none _ _ a k).trans ?_
  unfold GK gcn
  rw [prop_ix2]
  refine Finset.sum_congr rfl fun s _ => ?_
  refine congrArg₂ (· * ·) (ablk_apply m c t a s r ?_) rfl
  rw [(idx_A1 t ht).1]; exact hr

/-! ## From the blocks to the array -/

/-- What a step of phase 1 writes back is its block of the layer pair. -/
theorem flushed4_eq (c : Dev nD) (t : Fin cfg0.N) (ht : 25 ≤ t.val) :
    (dats m 0 c).flushed 4 t = ((cfg0.win 4).blk t).view.read (Elt Ideal) (GK m c) := by
  show (cfg0.win 4).cut (grid0.coords t) ((dats m 0 c).after 4 t) = _
  rw [after4]
  refine funext fun (x : S400x128.Idx) => ?_
  obtain ⟨a, k, rfl⟩ : ∃ (a : Fin 400) (k : Fin 128), x = ix2 a k := ⟨x 0, x 1, eq_ix2 x⟩
  have ha : a.val < 400 := a.isLt
  have hN : t.val < 50 := lt_of_lt_of_eq t.isLt N50
  show outAt m c t (ix2 a k) = GK m c (((cfg0.win 4).blk t).view.emb (ix2 a k))
  have he : ((cfg0.win 4).blk t).view.emb (ix2 a k)
      = ix2 (⟨(t.val - 25) * 400 + a.val, by omega⟩ : Fin 10000) k := by
    obtain ⟨-, -, -, -, -, -, -, e1⟩ := idx_in t
    funext ax; apply Fin.ext
    match ax with
    | ⟨0, _⟩ => show win0_4.index t (0 : Fin 2) * 400 + 1 * a.val = (t.val - 25) * 400 + a.val; rw [(idx_A1 t ht).2]; omega
    | ⟨1, _⟩ => show win0_4.index t (1 : Fin 2) * 128 + 1 * k.val = k.val; omega
  rw [he]
  exact outAt_apply m c t ht a k _ rfl

theorem mem_blk4 (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every row is in the block of some step of phase 1: the step of its block of 400. -/
theorem cover4 (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  refine ⟨pt (25 + (i 0).val / 400) (by omega), flush4 _ (by show 25 ≤ 25 + (i 0).val / 400; omega), ?_⟩
  rw [mem_blk4]
  obtain ⟨-, -, -, -, -, -, -, e1⟩ := idx_in (pt (25 + (i 0).val / 400) (by omega))
  have e0 := (idx_A1 (pt (25 + (i 0).val / 400) (by omega)) (by show 25 ≤ 25 + (i 0).val / 400; omega)).2
  intro a
  match a with
  | ⟨0, _⟩ =>
    show win0_4.index (pt (25 + (i 0).val / 400) (by omega)) (0 : Fin 2) * 400 ≤ (i 0).val ∧ (i 0).val < win0_4.index (pt (25 + (i 0).val / 400) (by omega)) (0 : Fin 2) * 400 + 400
    rw [e0]; show (25 + (i 0).val / 400 - 25) * 400 ≤ (i 0).val ∧ (i 0).val < (25 + (i 0).val / 400 - 25) * 400 + 400
    omega
  | ⟨1, _⟩ =>
    show win0_4.index (pt (25 + (i 0).val / 400) (by omega)) (1 : Fin 2) * 128 ≤ (i 1).val ∧ (i 1).val < win0_4.index (pt (25 + (i 0).val / 400) (by omega)) (1 : Fin 2) * 128 + 128
    omega

/-- The result array after the run is the layer pair of the argument arrays. -/
theorem final4 (c : Dev nD) : (dats m 0 c).arrAt 4 cfg0.N = GK m c :=
  (dats m 0 c).arrAt_eq_of_cover 4 (GK m c)
    (fun t hf => flushed4_eq m c t (by
      by_contra h
      have := noflush4 t (by omega)
      rw [this] at hf; exact Bool.false_ne_true hf))
    (cover4)

/-- The kernel's run, read: the result array at the layer pair, the four arguments as launched. -/
theorem run : θ_run defs (onTc (τ := τ) (main (F := Ideal))) ⟨m, fun _ => 0, ρ⟩ fun r => ∀ c : Dev nD,
      r.2.mem ((c : Thread nD τ).loc main_v0) = gcn (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Body

end
-- ==== Proof.RefValue.lean ====
/-
  The reference at the extended reals is the layer pair of GcnSpec: its four matrix products, read at an index as plain
  sums, are the two projections and the two propagations in the same nesting (the rectifier it also computes feeds
  nothing).
-/
import proofs.«152283_g90984587198652_cont_sun_m_16_11_alg».proof.Proof.Gen.ReferenceIdeal.Read
import proofs.«152283_g90984587198652_cont_sun_m_16_11_alg».proof.Proof.GcnSpec

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Gcn

theorem v0_fn (x0 : (⟨S10000x128, .f32⟩ : BufTy).Contents (Elt Ideal)) (x2 : (⟨S128x128, .f32⟩ : BufTy).Contents (Elt Ideal)) :
    val_main_v0 (F := Ideal) x0 x2 = proj x0 x2 := by
  funext i
  rw [val_main_v0_apply]
  show _ = ∑ k : Fin 128, x0 (ix2 (i 0) k) * x2 (ix2 k (i 1))
  refine Finset.sum_congr rfl fun k _ => ?_
  have el : lidx_main_v0 i k = ix2 (i 0) k := funext fun a => by match a with | ⟨0, _⟩ => rfl | ⟨1, _⟩ => rfl
  have er : ridx_main_v0 i k = ix2 k (i 1) := funext fun a => by match a with | ⟨0, _⟩ => rfl | ⟨1, _⟩ => rfl
  rw [el, er]
  rfl

theorem v1_fn (x0 : (⟨S10000x128, .f32⟩ : BufTy).Contents (Elt Ideal)) (x1 : (⟨S10000x10000, .f32⟩ : BufTy).Contents (Elt Ideal)) (x2 : (⟨S128x128, .f32⟩ : BufTy).Contents (Elt Ideal)) :
    val_main_v1 (F := Ideal) x0 x1 x2 = prop x1 (proj x0 x2) := by
  funext i
  rw [val_main_v1_apply, v0_fn]
  show _ = ∑ k : Fin 10000, x1 (ix2 (i 0) k) * proj x0 x2 (ix2 k (i 1))
  refine Finset.sum_congr rfl fun k _ => ?_
  have el : lidx_main_v1 i k = ix2 (i 0) k := funext fun a => by match a with | ⟨0, _⟩ => rfl | ⟨1, _⟩ => rfl
  have er : ridx_main_v1 i k = ix2 k (i 1) := funext fun a => by match a with | ⟨0, _⟩ => rfl | ⟨1, _⟩ => rfl
  rw [el, er]
  rfl

theorem v3_fn (x0 : (⟨S10000x128, .f32⟩ : BufTy).Contents (Elt Ideal)) (x1 : (⟨S10000x10000, .f32⟩ : BufTy).Contents (Elt Ideal)) (x2 x3 : (⟨S128x128, .f32⟩ : BufTy).Contents (Elt Ideal)) :
    val_main_v3 (F := Ideal) x0 x1 x2 x3 = proj (prop x1 (proj x0 x2)) x3 := by
  funext i
  rw [val_main_v3_apply, v1_fn]
  show _ = ∑ k : Fin 128, prop x1 (proj x0 x2) (ix2 (i 0) k) * x3 (ix2 k (i 1))
  refine Finset.sum_congr rfl fun k _ => ?_
  have el : lidx_main_v3 i k = ix2 (i 0) k := funext fun a => by match a with | ⟨0, _⟩ => rfl | ⟨1, _⟩ => rfl
  have er : ridx_main_v3 i k = ix2 k (i 1) := funext fun a => by match a with | ⟨0, _⟩ => rfl | ⟨1, _⟩ => rfl
  rw [el, er]
  rfl

theorem v4_fn (x0 : (⟨S10000x128, .f32⟩ : BufTy).Contents (Elt Ideal)) (x1 : (⟨S10000x10000, .f32⟩ : BufTy).Contents (Elt Ideal)) (x2 x3 : (⟨S128x128, .f32⟩ : BufTy).Contents (Elt Ideal)) :
    val_main_v4 (F := Ideal) x0 x1 x2 x3 = gcn x0 x1 x2 x3 := by
  funext i
  rw [val_main_v4_apply, v3_fn]
  show _ = ∑ k : Fin 10000, x1 (ix2 (i 0) k) * proj (prop x1 (proj x0 x2)) x3 (ix2 k (i 1))
  refine Finset.sum_congr rfl fun k _ => ?_
  have el : lidx_main_v4 i k = ix2 (i 0) k := funext fun a => by match a with | ⟨0, _⟩ => rfl | ⟨1, _⟩ => rfl
  have er : ridx_main_v4 i k = ix2 k (i 1) := funext fun a => by match a with | ⟨0, _⟩ => rfl | ⟨1, _⟩ => rfl
  rw [el, er]
  rfl

end Cert.ReferenceIdeal.RefValue

end
-- ==== Proof.lean ====
/-
  The fused two-layer graph convolution Y = A·((A·(X·W1))·W2) against its reference, at the extended reals.

  The kernel walks the 25 row blocks of A twice. In phase 0 it keeps z = X·W1 in one scratch buffer and fills a second
  with H = A·z, 400 rows per step, from the last block down to the first; in phase 1 it replaces z by H·W2 and stores
  A·z, 400 rows per step, into the result. The frames (Proof/BitsBody, Proof/IdealBody) carry what the two scratch
  buffers hold from step to step. At the extended reals every matrix product is a plain finite sum, so the rows the
  kernel stores are the rows of the layer pair of Proof/GcnSpec (Proof/IdealValue), and the reference's four products
  are the same sums in the same nesting (Proof/RefValue): no law of the extended reals beyond reading each product
  as its sum is used, and the inputs' finiteness is never opened. The idealization rewrote nothing, so it is preserved
  trivially.
-/
import proofs.«152283_g90984587198652_cont_sun_m_16_11_alg».proof.Defs
import proofs.«152283_g90984587198652_cont_sun_m_16_11_alg».proof.Proof.Gen.Kernel
import proofs.«152283_g90984587198652_cont_sun_m_16_11_alg».proof.Proof.Gen.KernelIdeal
import proofs.«152283_g90984587198652_cont_sun_m_16_11_alg».proof.Proof.Gen.ReferenceIdeal
import proofs.«152283_g90984587198652_cont_sun_m_16_11_alg».proof.Proof.Gen.Pre_finite_inputs
import proofs.«152283_g90984587198652_cont_sun_m_16_11_alg».proof.Proof.Gen.ReferenceIdeal.Run
import proofs.«152283_g90984587198652_cont_sun_m_16_11_alg».proof.Proof.Gen.ReferenceIdeal.Read
import proofs.«152283_g90984587198652_cont_sun_m_16_11_alg».proof.Proof.BitsBody
import proofs.«152283_g90984587198652_cont_sun_m_16_11_alg».proof.Proof.IdealValue
import proofs.«152283_g90984587198652_cont_sun_m_16_11_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to its end and leaves its arguments as launched. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the layer pair of the argument arrays. -/
theorem algebraic : Cert.algebraic_KernelIdeal_ReferenceIdeal := by
  intro m ρ m' ρ' _ hagree
  refine ⟨_, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.v4_fn,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
